-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16x2048x2048 : Shape := ⟨3, ![16, 2048, 2048]⟩
abbrev S64x64 : Shape := ⟨2, ![64, 64]⟩
abbrev S64 : Shape := ⟨1, ![64]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S16x2048x2048 : S_.BroadcastsInDim S16x2048x2048 (![] : Fin 0 → Fin S16x2048x2048.rank)
  reducesTo_S16x2048x2048_S_d0_1_2 : S16x2048x2048.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S16x2048x64 .f32) (main_arg1 : FVec F S16x2048x2048 .f32) (main_arg2 : FVec F S64x64 .f32) (main_arg3 : FVec F S64 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x2048 .f32 := Host.absf main_arg1
  let main_cst_0 : FVec F S_ .f32 := constant S_ .f32 0x7F800000#32
  let main_v5 : FVec F S16x2048x2048 .f32 := broadcastInDim S16x2048x2048 ![] bcast_S_S16x2048x2048 main_cst_0
  let main_v6 : IVec S16x2048x2048 1 := cmpf .olt main_v4 main_v5
  let main_c_1 : IVec S_ 1 := constantI S_ 1 1#1
  let main_v7 : IVec S_ 1 := (fun x v => Host.reduce IntOp.andi x v reducesTo_S16x2048x2048_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S16x2048x64 : Shape := ⟨3, ![16, 2048, 64]⟩
abbrev S16x2048x2048 : Shape := ⟨3, ![16, 2048, 2048]⟩
abbrev S64x64 : Shape := ⟨2, ![64, 64]⟩
abbrev S64 : Shape := ⟨1, ![64]⟩
abbrev S16x2048x1 : Shape := ⟨3, ![16, 2048, 1]⟩
abbrev S1x1024x2048 : Shape := ⟨3, ![1, 1024, 2048]⟩
abbrev S1x1024x1 : Shape := ⟨3, ![1, 1024, 1]⟩
abbrev S1024x2048 : Shape := ⟨2, ![1024, 2048]⟩
abbrev S1024 : Shape := ⟨1, ![1024]⟩
abbrev S1024x1 : Shape := ⟨2, ![1024, 1]⟩
abbrev S1x2048x64 : Shape := ⟨3, ![1, 2048, 64]⟩
abbrev S1x2048x1 : Shape := ⟨3, ![1, 2048, 1]⟩
abbrev S1x1024x64 : Shape := ⟨3, ![1, 1024, 64]⟩
abbrev S2048x64 : Shape := ⟨2, ![2048, 64]⟩
abbrev S2048x1 : Shape := ⟨2, ![2048, 1]⟩
abbrev S1024x64 : Shape := ⟨2, ![1024, 64]⟩
abbrev S1x64 : Shape := ⟨2, ![1, 64]⟩

abbrev nBuf : Space → Nat
  | .hbm => 6
  | .vmem => 17
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S64x64, .f32⟩
  | .hbm, ⟨3, _⟩ => ⟨S64, .f32⟩
  | .hbm, ⟨4, _⟩ => ⟨S16x2048x1, .f32⟩
  | .hbm, ⟨5, _⟩ => ⟨S16x2048x64, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x1, .f32⟩
  | .local _ .vmem, ⟨3, _⟩ => ⟨S1x1024x1, .f32⟩
  | .local _ .vmem, ⟨4, _⟩ => ⟨S1x1024x2048, .f32⟩
  | .local _ .vmem, ⟨5, _⟩ => ⟨S1x1024x2048, .f32⟩
  | .local _ .vmem, ⟨6, _⟩ => ⟨S1x2048x64, .f32⟩
  | .local _ .vmem, ⟨7, _⟩ => ⟨S1x2048x64, .f32⟩
  | .local _ .vmem, ⟨8, _⟩ => ⟨S64x64, .f32⟩
  | .local _ .vmem, ⟨9, _⟩ => ⟨S64, .f32⟩
  | .local _ .vmem, ⟨10, _⟩ => ⟨S1x2048x1, .f32⟩
  | .local _ .vmem, ⟨11, _⟩ => ⟨S1x2048x1, .f32⟩
  | .local _ .vmem, ⟨12, _⟩ => ⟨S1x1024x1, .f32⟩
  | .local _ .vmem, ⟨13, _⟩ => ⟨S1x1024x1, .f32⟩
  | .local _ .vmem, ⟨14, _⟩ => ⟨S1x1024x64, .f32⟩
  | .local _ .vmem, ⟨15, _⟩ => ⟨S1x1024x64, .f32⟩
  | .local _ .vmem, ⟨16, _⟩ => ⟨S2048x64, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x2048x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1024x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  reduces_S1024x2048_S1024 : S1024x2048.Reduces [1] S1024
  shapeCasts_S1024_S1024x1 : S1024.ShapeCasts S1024x1
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  broadcasts_S2048x1_S2048x64 : S2048x1.Broadcasts S2048x64
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  packedbf16_S2048x64_S2048x64_0_0 : (Rect.unit (s := S2048x64) ![0, 0] S2048x64.size inb_S2048x64_S2048x64_0_0).PackedRows (EltTy.packing .bf16)
  broadcasts_S1024x1_S1024x64 : S1024x1.Broadcasts S1024x64
  inb_S64_S64_0 : ∀ a, (![0] : Fin 1 → Nat) a + S64.size a ≤ S64.size a
  h_S64 : 0 < S64.numel
  shapeCasts_S64_S1x64 : S64.ShapeCasts S1x64
  broadcasts_S1x64_S1024x64 : S1x64.Broadcasts S1024x64
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  dot_S2048x64_S64x64_S2048x64_1_0_0_1_n_n_wf : DotDims.WF S2048x64 S64x64 S2048x64 [1] [0] [0] [1] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S16x2048x2048.size a
  hwx0_0 : ∀ i : grid0.Coords, EltTy.bits .f32 = 32 ∨ (Rect.block (s := S16x2048x2048) S1x1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1.size a ≤ S16x2048x1.size a
  hwx0_1 : ∀ i : grid0.Coords, EltTy.bits .f32 = 32 ∨ (Rect.block (s := S16x2048x1) S1x1024x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x2048.size a ≤ S16x2048x2048.size a
  hwx1_0 : ∀ i : grid1.Coords, EltTy.bits .f32 = 32 ∨ (Rect.block (s := S16x2048x2048) S1x1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S16x2048x64.size a
  hwx1_1 : ∀ i : grid1.Coords, EltTy.bits .f32 = 32 ∨ (Rect.block (s := S16x2048x64) S1x2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048x1.size a ≤ S16x2048x1.size a
  hwx1_4 : ∀ i : grid1.Coords, EltTy.bits .f32 = 32 ∨ (Rect.block (s := S16x2048x1) S1x2048x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024x1.size a ≤ S16x2048x1.size a
  hwx1_5 : ∀ i : grid1.Coords, EltTy.bits .f32 = 32 ∨ (Rect.block (s := S16x2048x1) S1x1024x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x1024x64.size a ≤ S16x2048x64.size a
  hwx1_6 : ∀ i : grid1.Coords, EltTy.bits .f32 = 32 ∨ (Rect.block (s := S16x2048x64) S1x1024x64.size (cc1_transform_6 i) (hinb1_6 i)).WholeWords (EltTy.packing .f32)

variable [Facts₀]

def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg1) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1024x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1x1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v0) S1x2048x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v0) S1x1024x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S1x1024x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S16x2048x64 : Shape := ⟨3, ![16, 2048, 64]⟩
abbrev S16x2048x2048 : Shape := ⟨3, ![16, 2048, 2048]⟩
abbrev S64x64 : Shape := ⟨2, ![64, 64]⟩
abbrev S64 : Shape := ⟨1, ![64]⟩
abbrev S_ : Shape := ⟨0, ![]⟩
abbrev S16x2048 : Shape := ⟨2, ![16, 2048]⟩
abbrev S16x2048x1 : Shape := ⟨3, ![16, 2048, 1]⟩
abbrev S16x1x2048 : Shape := ⟨3, ![16, 1, 2048]⟩
abbrev S1x1x64 : Shape := ⟨3, ![1, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x2048, .f32⟩
  | .hbm, ⟨2, _⟩ => ⟨S64x64, .f32⟩
  | .hbm, ⟨3, _⟩ => ⟨S64, .f32⟩
  | .hbm, ⟨4, _⟩ => ⟨S_, .f32⟩
  | .hbm, ⟨5, _⟩ => ⟨S16x2048, .f32⟩
  | .hbm, ⟨6, _⟩ => ⟨S_, .f32⟩
  | .hbm, ⟨7, _⟩ => ⟨S16x2048, .f32⟩
  | .hbm, ⟨8, _⟩ => ⟨S16x2048, .f32⟩
  | .hbm, ⟨9, _⟩ => ⟨S16x2048, .f32⟩
  | .hbm, ⟨10, _⟩ => ⟨S_, .f32⟩
  | .hbm, ⟨11, _⟩ => ⟨S16x2048, .f32⟩
  | .hbm, ⟨12, _⟩ => ⟨S16x2048, .i1⟩
  | .hbm, ⟨13, _⟩ => ⟨S_, .f32⟩
  | .hbm, ⟨14, _⟩ => ⟨S_, .f32⟩
  | .hbm, ⟨15, _⟩ => ⟨S16x2048, .f32⟩
  | .hbm, ⟨16, _⟩ => ⟨S16x2048, .f32⟩
  | .hbm, ⟨17, _⟩ => ⟨S16x2048x1, .f32⟩
  | .hbm, ⟨18, _⟩ => ⟨S16x2048x2048, .f32⟩
  | .hbm, ⟨19, _⟩ => ⟨S16x2048x2048, .f32⟩
  | .hbm, ⟨20, _⟩ => ⟨S16x1x2048, .f32⟩
  | .hbm, ⟨21, _⟩ => ⟨S16x2048x2048, .f32⟩
  | .hbm, ⟨22, _⟩ => ⟨S16x2048x2048, .f32⟩
  | .hbm, ⟨23, _⟩ => ⟨S16x2048x64, .f32⟩
  | .hbm, ⟨24, _⟩ => ⟨S16x2048x64, .f32⟩
  | .hbm, ⟨25, _⟩ => ⟨S1x1x64, .f32⟩
  | .hbm, ⟨26, _⟩ => ⟨S16x2048x64, .f32⟩
  | .hbm, ⟨27, _⟩ => ⟨S16x2048x64, .f32⟩
  | .hbm, ⟨28, _⟩ => ⟨S_, .f32⟩
  | .hbm, ⟨29, _⟩ => ⟨S16x2048x64, .f32⟩
  | .hbm, ⟨30, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_v3 : Ref sig .tc := ⟨.hbm, 12, rfl⟩
abbrev main_cst_1 : Ref sig .tc := ⟨.hbm, 13, rfl⟩
abbrev main_call1_v0 : Ref sig .tc := ⟨.hbm, 14, rfl⟩
abbrev main_call1_v1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_call2_cst : Ref sig .tc := ⟨.hbm, 28, rfl⟩
abbrev main_call2_v0 : Ref sig .tc := ⟨.hbm, 29, rfl⟩
abbrev main_v16 : Ref sig .tc := ⟨.hbm, 30, rfl⟩

abbrev nD : Nat := 1
abbrev τ : Topo := Topo.v7x

variable {F : FTy → Type} [FloatOps F]

class Facts₀ : Prop where
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  bcast_S64_S1x1x64_2 : S64.BroadcastsInDim S1x1x64 (![2] : Fin 1 → Fin S1x1x64.rank)
  bcast_S1x1x64_S16x2048x64_0_1_2 : S1x1x64.BroadcastsInDim S16x2048x64 (![0, 1, 2] : Fin 3 → Fin S16x2048x64.rank)
  bcast_S_S16x2048x64 : S_.BroadcastsInDim S16x2048x64 (![] : Fin 0 → Fin S16x2048x64.rank)
  dot_S16x2048x64_S64x64_S16x2048x64_2_0_01_1_n_n_wf : DotDims.WF S16x2048x64 S64x64 S16x2048x64 [2] [0] [0, 1] [1] [] []
  dot_S16x2048x2048_S16x2048x64_S16x2048x64_2_1_1_2_0_0_wf : DotDims.WF S16x2048x2048 S16x2048x64 S16x2048x64 [2] [1] [1] [2] [0] [0]

variable [Facts₀]

def dot_S16x2048x64_S64x64_S16x2048x64_2_0_01_1_n_n : DotDims S16x2048x64 S64x64 S16x2048x64 where
  lhsContracting := [2]
  rhsContracting := [0]
  lhsNonContracting := [0, 1]
  rhsNonContracting := [1]
  lhsBatch := []
  rhsBatch := []
  wf := dot_S16x2048x64_S64x64_S16x2048x64_2_0_01_1_n_n_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.K.Region0.lean ====
/-
  Region 0 (the degree kernel) as a separation-logic triple, at a parameter V: the buffer contents
  the region finds when it is entered.

  At a grid point the body reads the whole input block (one batch's 1024 rows of the adjacency matrix,
  1 x 1024 x 2048), reads the output block once without using what it read, and stores into the whole
  output block (1 x 1024 x 1) the value computed from the input block alone.  So the body leaves the
  input block in place and the output block at a function out0_1 of the input block, whatever the
  output block held before.  From this triple follow the proof data of the pipeline (what each staging
  buffer holds after the body at each point) and the body obligation at every point.
-/
import proofs.«160742_j10926396801181_2_alg».proof.Proof.Gen.Kernel.Launch
import proofs.«160742_j10926396801181_2_alg».proof.Proof.Gen.Kernel.Skeleton
import proofs.«160742_j10926396801181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a long axis: the structural check recurses once per coordinate
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any
    proof data whose array is V's and whose body leaves the block in place: the window is fetched whole and is
    never idle, so an unfetched point has the same block index as the one before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole input block and the whole output block -/

abbrev r0_0 : Rect S1x1024x2048 := Rect.unit (s := S1x1024x2048) ![0, 0, 0] S1x1024x2048.size inb_S1x1024x2048_S1x1024x2048_0_0_0
abbrev r0_1 : Rect S1x1024x1 := Rect.unit (s := S1x1024x1) ![0, 0, 0] S1x1024x1.size inb_S1x1024x1_S1x1024x1_0_0_0

/-! ## What the body leaves in the output window's buffer -/

/-- The output window's staging buffer after the body, from the input window's block: its one store, of the
    value computed from the input block. -/
def out0_1 (x0 : Vec F S1x1024x2048 .f32) : Vec F S1x1024x1 .f32 :=
  View.canon [⟨r0_1, k0_pay1 (View.ld x0 r0_0)⟩]

/-- The one store is of the whole buffer, so it covers it. -/
theorem cover0_1 (p0 : Vec F S1x1024x1 .f32) (y : S1x1024x1.Idx) :
    ∃ pc ∈ ([⟨r0_1, p0⟩] : List (View.Piece (Elt F) S1x1024x1 .f32)), y ∈ pc.1.set :=
  View.cover_of_tiled [⟨r0_1, p0⟩] S1x1024x1.size (by rfl) y

/-! ## The body's triple -/

set_option maxHeartbeats 1000000 in
/-- The kernel body on whole staging memrefs, the input's at contents x0 and the output's at anything, runs to
    the continuation holding the input's as it was and the output's at out0_1 of the input's.  The read of the
    output block changes nothing and what it reads is not used. -/
theorem sound_kernel0 (c : Dev nD) (E : Set ℕ) (i : grid0.Coords) (arg2 : Memref sig .tc .vmem S1x1024x2048 .f32) (harg2 : arg2.IsWhole) (arg3 : Memref sig .tc .vmem S1x1024x1 .f32) (harg3 : arg3.IsWhole)
    (x0 : Vec F S1x1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core c: the arrays as the region finds them; after the body at point t the
    input's buffer at its block and the output's at out0_1 of the input block; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frm

end
-- ==== Proof.K.Region1.lean ====
import proofs.«160742_j10926396801181_2_alg».proof.Proof.Gen.Kernel.Launch
import proofs.«160742_j10926396801181_2_alg».proof.Proof.Gen.Kernel.Skeleton
import proofs.«160742_j10926396801181_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the main pass): its body on any staging memrefs

The body has two control cases, by the row-tile coordinate of the grid point. At row tile 0 it first projects the
batch's features, folds the column scale on, and keeps the product in the scratch buffer; at every point it then
multiplies the adjacency row tile into the scratch buffer's contents, scales the rows, adds the bias and clamps at 0. -/

abbrev rA : Rect S1x1024x2048 := Rect.unit (s := S1x1024x2048) ![0, 0, 0] S1x1024x2048.size inb_S1x1024x2048_S1x1024x2048_0_0_0
abbrev rX : Rect S1x2048x64 := Rect.unit (s := S1x2048x64) ![0, 0, 0] S1x2048x64.size inb_S1x2048x64_S1x2048x64_0_0_0
abbrev rW : Rect S64x64 := Rect.unit (s := S64x64) ![0, 0] S64x64.size inb_S64x64_S64x64_0_0
abbrev rB : Rect S64 := Rect.unit (s := S64) ![0] S64.size inb_S64_S64_0
abbrev rD : Rect S1x2048x1 := Rect.unit (s := S1x2048x1) ![0, 0, 0] S1x2048x1.size inb_S1x2048x1_S1x2048x1_0_0_0
abbrev rR : Rect S1x1024x1 := Rect.unit (s := S1x1024x1) ![0, 0, 0] S1x1024x1.size inb_S1x1024x1_S1x1024x1_0_0_0
abbrev rO : Rect S1x1024x64 := Rect.unit (s := S1x1024x64) ![0, 0, 0] S1x1024x64.size inb_S1x1024x64_S1x1024x64_0_0_0
abbrev rS : Rect S2048x64 := Rect.unit (s := S2048x64) ![0, 0] S2048x64.size inb_S2048x64_S2048x64_0_0

/-- The branch condition of the body: the row-tile coordinate is 0. -/
abbrev cond1 (i : grid1.Coords) : Prop := (Scalar.cmpi .ne (Scalar.extui (Scalar.cmpi .eq (BitVec.ofNat 32 (i 1).val) 0#32)) 0#32) = 1#1

/-- It holds at the even points of the 16 × 2 grid (the row tile is the fast axis). -/
theorem hcond1 : ∀ t : Fin cfg1.N, cond1 (grid1.coords t) ↔ t.val % 2 = 0 :=
  (by decide +kernel : ∀ t : Fin grid1.N, cond1 (grid1.coords t) ↔ t.val % 2 = 0)

/-- The scratch buffer after the projection: the scaled projected features of the batch, one store of the whole buffer. -/
def supp1 (x1 : Vec F S1x2048x64 .f32) (x2 : Vec F S64x64 .f32) (x4 : Vec F S1x2048x1 .f32) : Vec F S2048x64 .bf16 :=
  View.canon [⟨rS, k1_pay1 (View.ld x1 rX) (View.ld x2 rW) (View.ld x4 rD)⟩]

/-- The output block after the body, from the scratch buffer's contents and the input blocks: one store of the whole block. -/
def out1_6 (s : Vec F S2048x64 .bf16) (x0 : Vec F S1x1024x2048 .f32) (x5 : Vec F S1x1024x1 .f32) (x3 : Vec F S64 .f32) : Vec F S1x1024x64 .f32 :=
  View.canon [⟨rO, k1_pay2 (View.ld s rS) (View.ld x0 rA) (View.ld x5 rR) (View.ld x3 rB)⟩]

theorem coverS (p0 : Vec F S2048x64 .bf16) (y : S2048x64.Idx) :
    ∃ pc ∈ ([⟨rS, p0⟩] : List (View.Piece (Elt F) S2048x64 .bf16)), y ∈ pc.1.set :=
  View.cover_of_tiled [⟨rS, p0⟩] S2048x64.size (by rfl) y

theorem coverO (p0 : Vec F S1x1024x64 .f32) (y : S1x1024x64.Idx) :
    ∃ pc ∈ ([⟨rO, p0⟩] : List (View.Piece (Elt F) S1x1024x64 .f32)), y ∈ pc.1.set :=
  View.cover_of_tiled [⟨rO, p0⟩] S1x1024x64.size (by rfl) y

set_option maxHeartbeats 1000000 in
/-- The body at a point whose row tile is not 0: the scratch buffer is read, not written. -/
theorem sound_kernel1_B (c : Dev nD) (E : Set ℕ) (i : grid1.Coords)
    (arg2 : Memref sig .tc .vmem S1x1024x2048 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S1x2048x1 .f32) (harg6 : arg6.IsWhole) (arg7 : Memref sig .tc .vmem S1x1024x1 .f32) (harg7 : arg7.IsWhole)
    (arg8 : Memref sig .tc .vmem S1x1024x64 .f32) (harg8 : arg8.IsWhole) (arg9 : Memref sig .tc .vmem S2048x64 .bf16) (harg9 : arg9.IsWhole)
    (hc : ¬cond1 i) (x0 : Vec F S1x1024x2048 .f32) (x1 : Vec F S1x2048x64 .f32) (x2 : Vec F S64x64 .f32) (x3 : Vec F S64 .f32) (x4 : Vec F S1x2048x1 .f32) (x5 : Vec F S1x1024x1 .f32)
    (s : Vec F S2048x64 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (out1_6 s x0 x5 x3) ∗ owns (c : Thread nD τ) arg9 fullShare s) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
  subst hf0; subst hf1; subst hf2; subst hf3; subst hf4; subst hf5; subst hf9
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    exact View.read_writes_eq_canon _ _ _ (coverO _)
  iexists f9; isplitr; · ipureintro; rfl
  iexact H9

set_option maxHeartbeats 1000000 in
/-- The body at a point whose row tile is 0: the scratch buffer is first written whole, then read. -/
theorem sound_kernel1_A (c : Dev nD) (E : Set ℕ) (i : grid1.Coords)
    (arg2 : Memref sig .tc .vmem S1x1024x2048 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S1x2048x1 .f32) (harg6 : arg6.IsWhole) (arg7 : Memref sig .tc .vmem S1x1024x1 .f32) (harg7 : arg7.IsWhole)
    (arg8 : Memref sig .tc .vmem S1x1024x64 .f32) (harg8 : arg8.IsWhole) (arg9 : Memref sig .tc .vmem S2048x64 .bf16) (harg9 : arg9.IsWhole)
    (hc : cond1 i) (x0 : Vec F S1x1024x2048 .f32) (x1 : Vec F S1x2048x64 .f32) (x2 : Vec F S64x64 .f32) (x3 : Vec F S64 .f32) (x4 : Vec F S1x2048x1 .f32) (x5 : Vec F S1x1024x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (out1_6 (supp1 x1 x2 x4) x0 x5 x3) ∗ owns (c : Thread nD τ) arg9 fullShare (supp1 x1 x2 x4)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    sl_unfold_run_names
    rw [View.readCov_eq_canon_ld _ _ _ (coverS _)]
    exact View.read_writes_eq_canon _ _ _ (coverO _)
  iexists _; isplitr
  swap; · iexact H9
  ipureintro
  exact View.read_writes_eq_canon _ _ _ (coverS _)

/-! # The second kernel as a pipeline: the windows' blocks, the proof data, the body obligation -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Proof data with the region's arrays and nothing else: a carrier for the library's facts about fetched blocks. -/
def datA (c : Dev nD) : Dat τ (Elt F) Unit ℕ (UR sig nD τ) ℕ cfg1 c where
  A w := V c (Pipeline.arrRef spec1 w)
  after _ _ := fun _ => Classical.arbitrary _
  Φ _ := iprop(emp)
  q _ := fullShare
  owed _ := 0

/-- Two points at which window 1 has one block index read one block. -/
theorem iblk1_congr_1 (c : Dev nD) {t t' : Fin cfg1.N} (h : (cfg1.win 1).index t = (cfg1.win 1).index t') :
    iblk1 V c 1 t = iblk1 V c 1 t' := by
  have e : ∀ s d, (datA V c).fetched 1 s d = iblk1 V c 1 s := fun s d => by unfold Dat.fetched Dat.blockOf iblk1; rfl
  rw [← e t (iblk1 V c 1 t), ← e t' (iblk1 V c 1 t)]
  exact (datA V c).fetched_congr 1 h rfl _

/-- Two points at which window 2 has one block index read one block. -/
theorem iblk1_congr_2 (c : Dev nD) {t t' : Fin cfg1.N} (h : (cfg1.win 2).index t = (cfg1.win 2).index t') :
    iblk1 V c 2 t = iblk1 V c 2 t' := by
  have e : ∀ s d, (datA V c).fetched 2 s d = iblk1 V c 2 s := fun s d => by unfold Dat.fetched Dat.blockOf iblk1; rfl
  rw [← e t (iblk1 V c 2 t), ← e t' (iblk1 V c 2 t)]
  exact (datA V c).fetched_congr 2 h rfl _

/-- Two points at which window 4 has one block index read one block. -/
theorem iblk1_congr_4 (c : Dev nD) {t t' : Fin cfg1.N} (h : (cfg1.win 4).index t = (cfg1.win 4).index t') :
    iblk1 V c 4 t = iblk1 V c 4 t' := by
  have e : ∀ s d, (datA V c).fetched 4 s d = iblk1 V c 4 s := fun s d => by unfold Dat.fetched Dat.blockOf iblk1; rfl
  rw [← e t (iblk1 V c 4 t), ← e t' (iblk1 V c 4 t)]
  exact (datA V c).fetched_congr 4 h rfl _

/-- What the scratch buffer holds after point t: the scaled projected features of the point's batch. At a point of
    row tile 0 the body has just stored them; at a point of row tile 1 the point before stored them, and the
    features', the weights' and the column scale's blocks have not moved. -/
def scr1 (c : Dev nD) (t : Fin cfg1.N) : Vec F S2048x64 .bf16 :=
  supp1 (iblk1 V c 1 t) (iblk1 V c 2 t) (iblk1 V c 4 t)

/-- The three windows the scratch buffer is computed from keep their block from an even point to the next. -/
theorem scr1_pred (c : Dev nD) (t : Fin cfg1.N) (h : ¬ t.val % 2 = 0) (h' : t.val - 1 < cfg1.N) :
    scr1 V c ⟨t.val - 1, h'⟩ = scr1 V c t := by
  have e1 := ((cfg1.win 1).index_eq_of_fetch rfl t (by rw [Bool.eq_false_iff]; exact fun hf => h ((fetch1_1 t).mp hf))).2
  have e2 := ((cfg1.win 2).index_eq_of_fetch rfl t (by rw [Bool.eq_false_iff]; exact fun hf => h (by have := (fetch1_2 t).mp hf; omega))).2
  have e4 := ((cfg1.win 4).index_eq_of_fetch rfl t (by rw [Bool.eq_false_iff]; exact fun hf => h ((fetch1_4 t).mp hf))).2
  unfold scr1
  rw [iblk1_congr_1 V c e1.symm, iblk1_congr_2 V c e2.symm, iblk1_congr_4 V c e4.symm]

/-- The scratch operand, a whole scoped buffer of the kernel's own. -/
abbrev scM : Memref sig .tc .vmem S2048x64 .bf16 := Memref.whole cc1_scratch0

/-- The first kernel's four staging buffers, each held whole at some contents: scoped buffers the second kernel never touches. -/
def rest4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The scoped rest and the generator register, the scratch operand as a memref owned at some contents: one way, -/
theorem PhiA1_split (c : Dev nD) :
    (Pipeline.ΦA spec1 c : sProp 𝕄)
      ⊢ iprop(iprop(rest4 c ∗ (∃ d, owns (c : Thread nD τ) scM fullShare d)) ∗ (∃ r, prngReg c r)) := by
  unfold Pipeline.ΦA rest4; rw [scopedRest1_eq]; simp only [scM, owns_whole]
  iintro ⟨⟨H0, H1, H2, H3, H4⟩, Hg⟩
  isplitr [Hg]
  · isplitr [H4]
    · isplitl [H0]; · iexact H0
      isplitl [H1]; · iexact H1
      isplitl [H2]; · iexact H2
      iexact H3
    iexact H4
  iexact Hg

/-- and the other. -/
theorem PhiA1_join (c : Dev nD) :
    iprop(iprop(rest4 c ∗ (∃ d, owns (c : Thread nD τ) scM fullShare d)) ∗ (∃ r, prngReg c r))
      ⊢ (Pipeline.ΦA spec1 c : sProp 𝕄) := by
  unfold Pipeline.ΦA rest4; rw [scopedRest1_eq]; simp only [scM, owns_whole]
  iintro ⟨⟨⟨H0, H1, H2, H3⟩, H4⟩, Hg⟩
  isplitr [Hg]
  · isplitl [H0]; · iexact H0
    isplitl [H1]; · iexact H1
    isplitl [H2]; · iexact H2
    isplitl [H3]; · iexact H3
    iexact H4
  iexact Hg

/-- The region invariant before position n: before the first point every scoped buffer at anything; afterwards the
    scratch buffer at what the point before left in it. -/
def Phi1 (c : Dev nD) : (n : ℕ) → n ≤ cfg1.N → sProp 𝕄
  | 0, _ => Pipeline.ΦA spec1 c
  | n + 1, hn => iprop(iprop(rest4 c ∗ owns (c : Thread nD τ) scM fullShare (scr1 V c ⟨n, hn⟩)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(rest4 c ∗ owns (c : Thread nD τ) scM fullShare (scr1 V c ⟨n, hn⟩)) ∗ (∃ r, prngReg c r)) := rfl

theorem Phi1_pos (c : Dev nD) (n : ℕ) (h : n ≤ cfg1.N) (hz : n ≠ 0) :
    Phi1 V c n h = iprop(iprop(rest4 c ∗ owns (c : Thread nD τ) scM fullShare (scr1 V c ⟨n - 1, by omega⟩)) ∗ (∃ r, prngReg c r)) := by
  cases n with
  | zero => exact absurd rfl hz
  | succ n => rfl

/-- The proof data of the second pipeline on core c: the arrays as the region finds them; after the body each input's
    buffer at its block and the output's at the body's result on the point's blocks; the scratch buffer carried in the
    invariant; nothing owed. The column scale and the row scale are two windows on one array, which they hold at
    the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (scr1 V c t) (iblk1 V c 0 t) (iblk1 V c 5 t) (iblk1 V c 3 t)
  Φ t := Phi1 V c t.val (Nat.le_of_lt_succ t.isLt)
  q w := match w with
    | ⟨4, _⟩ => fullShare.left
    | ⟨5, _⟩ => fullShare.right
    | _ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (scr1 V c t) (iblk1 V c 0 t) (iblk1 V c 5 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks; the point's row tile says which case it is in;
    the invariant hands the body the scratch buffer (at anything before the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = Phi1 V c (t.val + 1) t.isLt from rfl, Phi1_succ,
    after1_0, after1_1, after1_2, after1_3, after1_4, after1_5, after1_6, Phi1_castSucc V c t]
  by_cases h0 : t.val % 2 = 0
  · have hc : cond1 (grid1.coords t) := (hcond1 t).mpr h0
    have hΦ : (Phi1 V c t.val (Nat.le_of_lt t.isLt) : sProp 𝕄) ⊢ iprop(iprop(rest4 c ∗ (∃ d, owns (c : Thread nD τ) scM fullShare d)) ∗ (∃ r, prngReg c r)) := by
      by_cases hz : t.val = 0
      · rw [Phi1_zero V c _ _ hz]; exact PhiA1_split c
      · rw [Phi1_pos V c _ _ hz]
        iintro ⟨⟨Hr, HS⟩, Hg⟩
        isplitr [Hg]
        · isplitl [Hr]; · iexact Hr
          iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hΦ $$ HΦ
    icases HΦ' with ⟨⟨Hr, HS⟩, Hg⟩
    iapply (sound_kernel1_A c Set.univ _ _ _ _ _ _ _ _ _ _ _ _ _ _ _ _ _ hc (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hr HS Hg]
    · isplitr [Hg]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬cond1 (grid1.coords t) := fun h => h0 ((hcond1 t).mp h)
    have hz : t.val ≠ 0 := fun e => h0 (by rw [e])
    rw [Phi1_pos V c _ _ hz, ← scr1_pred V c t h0 (by omega)]
    iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ _ _ _ _ _ _ _ _ _ _ _ _ _ _ _ _ _ hc (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hr HS Hg]
    · isplitr [Hg]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- The invariant after a point gives the scoped rest back, the scratch buffer's contents forgotten. -/
theorem Phi_forget (c : Dev nD) (s : Vec F S2048x64 .bf16) :
    iprop(iprop(rest4 c ∗ owns (c : Thread nD τ) scM fullShare s) ∗ (∃ r, prngReg c r)) ⊢ (Pipeline.ΦA spec1 c : sProp 𝕄) := by
  have h : iprop(iprop(rest4 c ∗ owns (c : Thread nD τ) scM fullShare s) ∗ (∃ r, prngReg c r))
      ⊢ (iprop(iprop(rest4 c ∗ (∃ d, owns (c : Thread nD τ) scM fullShare d)) ∗ (∃ r, prngReg c r)) : sProp 𝕄) := by
    iintro ⟨⟨Hr, HS⟩, Hg⟩
    isplitr [Hg]
    · isplitl [Hr]; · iexact Hr
      iexists _; iexact HS
    iexact Hg
  exact h.trans (PhiA1_join c)

/-- So it does after the last point. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega)]
  exact Phi_forget c _

end Cert.Kernel.Frm
end
-- ==== Proof.K.Arrays1.lean ====
/-
  The second kernel's arrays at its entry and at its exit.

  The pipeline holds one points-to per window; the launch hands it, and takes back, one points-to per buffer.  Five
  of the seven windows are each alone on their buffer.  The column scale and the row scale (windows 4 and 5) are
  two windows on one buffer, which they hold at the two halves of the full share: at the entry the buffer's full
  points-to is split in two, at the exit the two halves, which hold the same contents because an input array is
  never written, are joined again.
-/
import proofs.«160742_j10926396801181_2_alg».proof.Proof.K.Region1

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the second kernel's arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_arg0) ↦{fullShare} V' main_arg0)
        ∗ (((c : Thread nD τ).loc main_arg2) ↦{fullShare} V' main_arg2) ∗ (((c : Thread nD τ).loc main_arg3) ↦{fullShare} V' main_arg3)
        ∗ (((c : Thread nD τ).loc main_v0) ↦{fullShare} V' main_v0) ∗ (((c : Thread nD τ).loc main_v1) ↦{fullShare} V' main_v1)) := by
  unfold Pipeline.arrBufs
  exact (bigSep_eq_bigSepL_of_eq [main_arg1, main_arg0, main_arg2, main_arg3, main_v0, main_v1] (by decide) (by decide) _).trans rfl

variable (V : (c : Dev nD) → (b : Ref sig .tc) → Buf (Elt F) ((c : Thread nD τ).loc b))

/-- The windows' arrays, one by one: each a whole buffer, at the full share but for the two windows on one buffer. -/
theorem arrays1_eq (c : Dev nD) (G : (w : Fin cfg1.W) → Buf (Elt F) ((cfg1.win w).arr.view.loc (c : Thread nD τ))) :
    (dat1 V c).arrays G
      = iprop((((c : Thread nD τ).loc main_arg1) ↦{fullShare} G 0) ∗ (((c : Thread nD τ).loc main_arg0) ↦{fullShare} G 1)
        ∗ (((c : Thread nD τ).loc main_arg2) ↦{fullShare} G 2) ∗ (((c : Thread nD τ).loc main_arg3) ↦{fullShare} G 3)
        ∗ (((c : Thread nD τ).loc main_v0) ↦{fullShare.left} G 4) ∗ (((c : Thread nD τ).loc main_v0) ↦{fullShare.right} G 5)
        ∗ (((c : Thread nD τ).loc main_v1) ↦{fullShare} G 6)) := by
  unfold Dat.arrays
  rw [bigSep_W1]
  have s0 : (cfg1.win 0).arr.view.set = Finset.univ := (arr_whole1 0).set_eq_univ
  have s1 : (cfg1.win 1).arr.view.set = Finset.univ := (arr_whole1 1).set_eq_univ
  have s2 : (cfg1.win 2).arr.view.set = Finset.univ := (arr_whole1 2).set_eq_univ
  have s3 : (cfg1.win 3).arr.view.set = Finset.univ := (arr_whole1 3).set_eq_univ
  have s4 : (cfg1.win 4).arr.view.set = Finset.univ := (arr_whole1 4).set_eq_univ
  have s5 : (cfg1.win 5).arr.view.set = Finset.univ := (arr_whole1 5).set_eq_univ
  have s6 : (cfg1.win 6).arr.view.set = Finset.univ := (arr_whole1 6).set_eq_univ
  have q0 : (dat1 V c).share 0 = fullShare := rfl
  have q1 : (dat1 V c).share 1 = fullShare := rfl
  have q2 : (dat1 V c).share 2 = fullShare := rfl
  have q3 : (dat1 V c).share 3 = fullShare := rfl
  have q4 : (dat1 V c).share 4 = fullShare.left := rfl
  have q5 : (dat1 V c).share 5 = fullShare.right := rfl
  have q6 : (dat1 V c).share 6 = fullShare := rfl
  rw [q0, q1, q2, q3, q4, q5, q6]
  simp only [s0, s1, s2, s3, s4, s5, s6]

/-- At the entry: the buffers at the launch contents make the pipeline's arrays, the shared buffer split in halves. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  have e0 : (dat1 V c).arrAt 0 0 = V c main_arg1 := rfl
  have e1 : (dat1 V c).arrAt 1 0 = V c main_arg0 := rfl
  have e2 : (dat1 V c).arrAt 2 0 = V c main_arg2 := rfl
  have e3 : (dat1 V c).arrAt 3 0 = V c main_arg3 := rfl
  have e4 : (dat1 V c).arrAt 4 0 = V c main_v0 := rfl
  have e5 : (dat1 V c).arrAt 5 0 = V c main_v0 := rfl
  have e6 : (dat1 V c).arrAt 6 0 = V c main_v1 := rfl
  rw [e0, e1, e2, e3, e4, e5, e6]
  iintro ⟨H1, H0, H2, H3, Hv0, Hv1⟩
  ihave Hv := (pointsTo_share (PosShare.mem_left_op_right fullShare)).1 $$ Hv0
  icases Hv with ⟨Hl, Hr⟩
  isplitl [H1]; · iexact H1
  isplitl [H0]; · iexact H0
  isplitl [H2]; · iexact H2
  isplitl [H3]; · iexact H3
  isplitl [Hl]; · iexact Hl
  isplitl [Hr]; · iexact Hr
  iexact Hv1

/-- At the exit: the pipeline's arrays after every write-back make the buffers at contents that are the output array
    on the output buffer and the launch contents elsewhere, the shared buffer's halves joined. -/
theorem bufs_of_arrays1 (c : Dev nD) (V' : (b : Ref sig .tc) → Buf (Elt F) ((c : Thread nD τ).loc b))
    (h1 : V' main_v1 = (dat1 V c).arrAt 6 cfg1.N) (hrest : ∀ b : Ref sig .tc, b ≠ main_v1 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq]
  have e0 : (dat1 V c).arrAt 0 cfg1.N = V' main_arg1 :=
    ((dat1 V c).arrAt_in 0 rfl cfg1.N).trans (hrest main_arg1 (by decide)).symm
  have e1 : (dat1 V c).arrAt 1 cfg1.N = V' main_arg0 :=
    ((dat1 V c).arrAt_in 1 rfl cfg1.N).trans (hrest main_arg0 (by decide)).symm
  have e2 : (dat1 V c).arrAt 2 cfg1.N = V' main_arg2 :=
    ((dat1 V c).arrAt_in 2 rfl cfg1.N).trans (hrest main_arg2 (by decide)).symm
  have e3 : (dat1 V c).arrAt 3 cfg1.N = V' main_arg3 :=
    ((dat1 V c).arrAt_in 3 rfl cfg1.N).trans (hrest main_arg3 (by decide)).symm
  have e4 : (dat1 V c).arrAt 4 cfg1.N = V' main_v0 :=
    ((dat1 V c).arrAt_in 4 rfl cfg1.N).trans (hrest main_v0 (by decide)).symm
  have e5 : (dat1 V c).arrAt 5 cfg1.N = V' main_v0 :=
    ((dat1 V c).arrAt_in 5 rfl cfg1.N).trans (hrest main_v0 (by decide)).symm
  have e6 : (dat1 V c).arrAt 6 cfg1.N = V' main_v1 := h1.symm
  rw [e0, e1, e2, e3, e4, e5, e6]
  iintro ⟨H1, H0, H2, H3, Hl, Hr, Hv1⟩
  ihave Hv := (pointsTo_share (PosShare.mem_left_op_right fullShare)).2 $$ [Hl Hr]
  · isplitl [Hl] <;> iassumption
  isplitl [H1]; · iexact H1
  isplitl [H0]; · iexact H0
  isplitl [H2]; · iexact H2
  isplitl [H3]; · iexact H3
  isplitl [Hv]; · iexact Hv
  iexact Hv1

end Cert.Kernel.Frm

end
-- ==== Proof.K.Run.lean ====
import proofs.«160742_j10926396801181_2_alg».proof.Proof.Gen.Kernel.Launch
import proofs.«160742_j10926396801181_2_alg».proof.Proof.Gen.Kernel.Skeleton
import proofs.«160742_j10926396801181_2_alg».proof.Proof.Gen.Kernel.Points
import proofs.«160742_j10926396801181_2_alg».proof.Proof.K.Region0
import proofs.«160742_j10926396801181_2_alg».proof.Proof.K.Region1
import proofs.«160742_j10926396801181_2_alg».proof.Proof.K.Arrays1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: the two kernels as regions of @main, entered one after the other -/

variable (m : (ℓ : Loc nD τ sig) → Buf (Elt F) ℓ) (ρ : Dev nD → PrngReg)

/-- Core c's buffers at launch. -/
abbrev W0 : Dev nD → Valuation τ sig (Elt F) := fun c b => m (c, b)
/-- The same read at the TensorCore's references (what the first kernel's proof data take). -/
abbrev VV0 : (c : Dev nD) → (b : Ref sig .tc) → Buf (Elt F) ((c : Thread nD τ).loc b) := fun c b => W0 m c b
/-- After the first kernel: its arrays at what the pipeline leaves (the adjacency as entered, the scale array's
    write-backs folded), every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (what the second kernel's proof data take). -/
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After the second kernel: the result array at what the pipeline leaves, every other buffer as the second kernel found it. -/
def W2 (c : Dev nD) : Valuation τ sig (Elt F) :=
  Function.update (W1 m c) (Proc.devRef .tc main_v1) ((dat1 (VV1 m) c).arrAt 6 cfg1.N)
abbrev VV2 : (c : Dev nD) → (b : Ref sig .tc) → Buf (Elt F) ((c : Thread nD τ).loc b) := fun c b => W2 m c b
theorem W2_v1 (c : Dev nD) : VV2 m c main_v1 = (dat1 (VV1 m) c).arrAt 6 cfg1.N := by
  show W2 m c (Proc.devRef .tc main_v1) = _
  unfold W2; rw [Function.update_self]
theorem W2_of_ne (c : Dev nD) (b : Ref sig .tc) (hb : b ≠ main_v1) : VV2 m c b = VV1 m c b := by
  show W2 m c (Proc.devRef .tc b) = W1 m c (Proc.devRef .tc b)
  unfold W2; rw [Function.update_of_ne (StableHlo.devRef_ne_of_ne hb)]

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV1 m) c
abbrev 𝒱₀ : Variants := Variants.none
abbrev L : GSem nD τ sig → Finset Unit := fun _ => ∅
abbrev lv : GSem nD τ sig → Unit → ℕ := fun _ _ => 0
/-- What rides beside the buffers through both regions: the core's generator register at some state and its owes, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register at some state. -/
abbrev Tₙ (c : Dev nD) : sProp 𝕄 := iprop(StableHlo.held (c : Thread nD τ) (Pipeline.ucRefs τ sig) (W2 m c) ∗ ∃ r, prngReg c r)

set_option backward.isDefEq.respectTransparency.types false in
/-- The first kernel over the thread state: entered from every unscoped buffer at the launch contents, left with the
    scale array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from the buffers as the first kernel left them, left with the
    result array at what its write-backs leave. Two of its windows are on the scale array: the array's full share is
    dealt to them in halves at the entry and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none]
    have hub := Pipeline.unscopedBufs_split₀ (Ix := Unit) (Name := ℕ) (U := UR sig nD τ) (Lvl := ℕ) (Pipeline.pin (pcfgs (F := F)) adm) 1
      winFacts₀1.arr_unscoped c (VV1 m c)
    rw [Pipeline.unscopedBufs_held] at hub
    rw [hub]
    iintro ⟨⟨⟨Hb, Hrest⟩, Hp, HO⟩, -, -⟩
    ihave Ha := (arrays1_of_bufs (VV1 m) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (VV1 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VV1 m) c).trans h
  hexit c := by
    have hub := Pipeline.unscopedBufs_split₀ (Ix := Unit) (Name := ℕ) (U := UR sig nD τ) (Lvl := ℕ) (Pipeline.pin (pcfgs (F := F)) adm) 1
      winFacts₀1.arr_unscoped c (VV2 m c)
    rw [Pipeline.unscopedBufs_held] at hub
    have hZ : (Pipeline.unscopedRest (Ix := Unit) (Name := ℕ) (U := UR sig nD τ) (Lvl := ℕ) spec1 c (VV1 m c) : sProp 𝕄)
        = Pipeline.unscopedRest spec1 c (VV2 m c) := by rw [unscopedRest1_eq, unscopedRest1_eq]
    have hjoin : ((pdats m 1 c).arrays fun x => (pdats m 1 c).arrAt x (Pipeline.pin (pcfgs (F := F)) adm 1).N)
        ⊢ (Pipeline.arrBufs (Ix := Unit) (Name := ℕ) (U := UR sig nD τ) (Lvl := ℕ) spec1 c (VV2 m c) : sProp 𝕄) :=
      bufs_of_arrays1 (VV1 m) c (VV2 m c) (W2_v1 m c) (fun b hb => W2_of_ne m c b hb)
    unfold Tₙ
    rw [hub, hZ]
    iintro ⟨Ha, HO, HY, Hrest⟩
    ihave Hb := hjoin $$ Ha
    imodintro
    isplitl [Hb Hrest HY]
    · isplitl [Hb Hrest]
      · isplitl [Hb]; · iexact Hb
        iexact Hrest
      iexact HY
    unfold Pipeline.Dat.owesAt Pipeline.owesWithin
    icases HO with ⟨%W, -, HO⟩; iexists W; iexact HO

/-- @main's two regions in order. -/
abbrev segs : List (Pipeline.Seg (pcfgs (F := F)) adm (pdats m) () defs₀ 𝒱₀ L lv) :=
  [ .region (reg0 m), .region (reg1 m) ]

set_option backward.isDefEq.respectTransparency.types false in
/-- THE RUN: from any memory with zero counters every weakly fair execution of @main on the TensorCores terminates,
    nothing faulting, and every final state holds every unscoped buffer at the last contents: the result array at what
    the second pipeline's write-backs leave, every other buffer as it was found. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The arguments end as launched: neither kernel writes one. -/
theorem W2_arg (c : Dev nD) (b : Ref sig .tc) (h1 : b ≠ main_v1) (h0 : b ≠ main_v0) (hb : ∀ w, Pipeline.arrRef spec0 w = b → w = 0) :
    W2 m c (Proc.devRef .tc b) = m ((c : Thread nD τ).loc b) := by
  have e2 : W2 m c (Proc.devRef .tc b) = W1 m c (Proc.devRef .tc b) := W2_of_ne m c b h1
  rw [e2]
  by_cases hw : ∃ w, Pipeline.arrRef spec0 w = b
  · obtain ⟨w, rfl⟩ := hw
    obtain rfl := hb w rfl
    exact (W1_arr m c 0).trans (((dat0 (VV0 m) c).arrAt_in 0 rfl _).trans (A_eq0 (VV0 m) c 0))
  · exact W1_of_ne m c b fun w e => hw ⟨w, e⟩

end Cert.Kernel.Frm
end
-- ==== Proof.KI.Region0.lean ====
/-
  Region 0 (the degree kernel) as a separation-logic triple, at a parameter V: the buffer contents
  the region finds when it is entered.

  At a grid point the body reads the whole input block (one batch's 1024 rows of the adjacency matrix,
  1 x 1024 x 2048), reads the output block once without using what it read, and stores into the whole
  output block (1 x 1024 x 1) the value computed from the input block alone.  So the body leaves the
  input block in place and the output block at a function out0_1 of the input block, whatever the
  output block held before.  From this triple follow the proof data of the pipeline (what each staging
  buffer holds after the body at each point) and the body obligation at every point.
-/
import proofs.«160742_j10926396801181_2_alg».proof.Proof.Gen.KernelIdeal.Launch
import proofs.«160742_j10926396801181_2_alg».proof.Proof.Gen.KernelIdeal.Skeleton
import proofs.«160742_j10926396801181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle with a long axis: the structural check recurses once per coordinate
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, fetched there or not, for any
    proof data whose array is V's and whose body leaves the block in place: the window is fetched whole and is
    never idle, so an unfetched point has the same block index as the one before it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the whole input block and the whole output block -/

abbrev r0_0 : Rect S1x1024x2048 := Rect.unit (s := S1x1024x2048) ![0, 0, 0] S1x1024x2048.size inb_S1x1024x2048_S1x1024x2048_0_0_0
abbrev r0_1 : Rect S1x1024x1 := Rect.unit (s := S1x1024x1) ![0, 0, 0] S1x1024x1.size inb_S1x1024x1_S1x1024x1_0_0_0

/-! ## What the body leaves in the output window's buffer -/

/-- The output window's staging buffer after the body, from the input window's block: its one store, of the
    value computed from the input block. -/
def out0_1 (x0 : Vec F S1x1024x2048 .f32) : Vec F S1x1024x1 .f32 :=
  View.canon [⟨r0_1, k0_pay1 (View.ld x0 r0_0)⟩]

/-- The one store is of the whole buffer, so it covers it. -/
theorem cover0_1 (p0 : Vec F S1x1024x1 .f32) (y : S1x1024x1.Idx) :
    ∃ pc ∈ ([⟨r0_1, p0⟩] : List (View.Piece (Elt F) S1x1024x1 .f32)), y ∈ pc.1.set :=
  View.cover_of_tiled [⟨r0_1, p0⟩] S1x1024x1.size (by rfl) y

/-! ## The body's triple -/

set_option maxHeartbeats 1000000 in
/-- The kernel body on whole staging memrefs, the input's at contents x0 and the output's at anything, runs to
    the continuation holding the input's as it was and the output's at out0_1 of the input's.  The read of the
    output block changes nothing and what it reads is not used. -/
theorem sound_kernel0 (c : Dev nD) (E : Set ℕ) (i : grid0.Coords) (arg2 : Memref sig .tc .vmem S1x1024x2048 .f32) (harg2 : arg2.IsWhole) (arg3 : Memref sig .tc .vmem S1x1024x1 .f32) (harg3 : arg3.IsWhole)
    (x0 : Vec F S1x1024x2048 .f32) (K : PUnit → sProp 𝕄) :
    iprop(owns (c : Thread nD τ) arg2 fullShare x0 ∗ (∃ d, owns (c : Thread nD τ) arg3 fullShare d)
        ∗ (iprop(owns (c : Thread nD τ) arg2 fullShare x0 ∗ owns (c : Thread nD τ) arg3 fullShare (out0_1 x0)) -∗ K ⟨⟩))
      ⊢ wp frame (wpE (defs₀ (F := F)) Variants.none c none) E (cc0__degree_kernel i arg2 harg2 arg3 harg3) K := by
  simp only [cc0__degree_kernel_eq_skeleton]; unfold cc0__degree_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-! ## The pipeline's proof data -/

/-- The proof data of pipeline 0 on core c: the arrays as the region finds them; after the body at point t the
    input's buffer at its block and the output's at out0_1 of the input block; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

/-- The input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's memref holds its block, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frm

end
-- ==== Proof.KI.Region1.lean ====
import proofs.«160742_j10926396801181_2_alg».proof.Proof.Gen.KernelIdeal.Launch
import proofs.«160742_j10926396801181_2_alg».proof.Proof.Gen.KernelIdeal.Skeleton
import proofs.«160742_j10926396801181_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The second kernel (the main pass): its body on any staging memrefs

The body has two control cases, by the row-tile coordinate of the grid point. At row tile 0 it first projects the
batch's features, folds the column scale on, and keeps the product in the scratch buffer; at every point it then
multiplies the adjacency row tile into the scratch buffer's contents, scales the rows, adds the bias and clamps at 0. -/

abbrev rA : Rect S1x1024x2048 := Rect.unit (s := S1x1024x2048) ![0, 0, 0] S1x1024x2048.size inb_S1x1024x2048_S1x1024x2048_0_0_0
abbrev rX : Rect S1x2048x64 := Rect.unit (s := S1x2048x64) ![0, 0, 0] S1x2048x64.size inb_S1x2048x64_S1x2048x64_0_0_0
abbrev rW : Rect S64x64 := Rect.unit (s := S64x64) ![0, 0] S64x64.size inb_S64x64_S64x64_0_0
abbrev rB : Rect S64 := Rect.unit (s := S64) ![0] S64.size inb_S64_S64_0
abbrev rD : Rect S1x2048x1 := Rect.unit (s := S1x2048x1) ![0, 0, 0] S1x2048x1.size inb_S1x2048x1_S1x2048x1_0_0_0
abbrev rR : Rect S1x1024x1 := Rect.unit (s := S1x1024x1) ![0, 0, 0] S1x1024x1.size inb_S1x1024x1_S1x1024x1_0_0_0
abbrev rO : Rect S1x1024x64 := Rect.unit (s := S1x1024x64) ![0, 0, 0] S1x1024x64.size inb_S1x1024x64_S1x1024x64_0_0_0
abbrev rS : Rect S2048x64 := Rect.unit (s := S2048x64) ![0, 0] S2048x64.size inb_S2048x64_S2048x64_0_0

/-- The branch condition of the body: the row-tile coordinate is 0. -/
abbrev cond1 (i : grid1.Coords) : Prop := (Scalar.cmpi .ne (Scalar.extui (Scalar.cmpi .eq (BitVec.ofNat 32 (i 1).val) 0#32)) 0#32) = 1#1

/-- It holds at the even points of the 16 × 2 grid (the row tile is the fast axis). -/
theorem hcond1 : ∀ t : Fin cfg1.N, cond1 (grid1.coords t) ↔ t.val % 2 = 0 :=
  (by decide +kernel : ∀ t : Fin grid1.N, cond1 (grid1.coords t) ↔ t.val % 2 = 0)

/-- The scratch buffer after the projection: the scaled projected features of the batch, one store of the whole buffer. -/
def supp1 (x1 : Vec F S1x2048x64 .f32) (x2 : Vec F S64x64 .f32) (x4 : Vec F S1x2048x1 .f32) : Vec F S2048x64 .bf16 :=
  View.canon [⟨rS, k1_pay1 (View.ld x1 rX) (View.ld x2 rW) (View.ld x4 rD)⟩]

/-- The output block after the body, from the scratch buffer's contents and the input blocks: one store of the whole block. -/
def out1_6 (s : Vec F S2048x64 .bf16) (x0 : Vec F S1x1024x2048 .f32) (x5 : Vec F S1x1024x1 .f32) (x3 : Vec F S64 .f32) : Vec F S1x1024x64 .f32 :=
  View.canon [⟨rO, k1_pay2 (View.ld s rS) (View.ld x0 rA) (View.ld x5 rR) (View.ld x3 rB)⟩]

theorem coverS (p0 : Vec F S2048x64 .bf16) (y : S2048x64.Idx) :
    ∃ pc ∈ ([⟨rS, p0⟩] : List (View.Piece (Elt F) S2048x64 .bf16)), y ∈ pc.1.set :=
  View.cover_of_tiled [⟨rS, p0⟩] S2048x64.size (by rfl) y

theorem coverO (p0 : Vec F S1x1024x64 .f32) (y : S1x1024x64.Idx) :
    ∃ pc ∈ ([⟨rO, p0⟩] : List (View.Piece (Elt F) S1x1024x64 .f32)), y ∈ pc.1.set :=
  View.cover_of_tiled [⟨rO, p0⟩] S1x1024x64.size (by rfl) y

set_option maxHeartbeats 1000000 in
/-- The body at a point whose row tile is not 0: the scratch buffer is read, not written. -/
theorem sound_kernel1_B (c : Dev nD) (E : Set ℕ) (i : grid1.Coords)
    (arg2 : Memref sig .tc .vmem S1x1024x2048 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S1x2048x1 .f32) (harg6 : arg6.IsWhole) (arg7 : Memref sig .tc .vmem S1x1024x1 .f32) (harg7 : arg7.IsWhole)
    (arg8 : Memref sig .tc .vmem S1x1024x64 .f32) (harg8 : arg8.IsWhole) (arg9 : Memref sig .tc .vmem S2048x64 .bf16) (harg9 : arg9.IsWhole)
    (hc : ¬cond1 i) (x0 : Vec F S1x1024x2048 .f32) (x1 : Vec F S1x2048x64 .f32) (x2 : Vec F S64x64 .f32) (x3 : Vec F S64 .f32) (x4 : Vec F S1x2048x1 .f32) (x5 : Vec F S1x1024x1 .f32)
    (s : Vec F S2048x64 .bf16) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ owns (c : Thread nD τ) arg9 fullShare s
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (out1_6 s x0 x5 x3) ∗ owns (c : Thread nD τ) arg9 fullShare s) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%f9, %hf9, H9⟩, Hk⟩
  subst hf0; subst hf1; subst hf2; subst hf3; subst hf4; subst hf5; subst hf9
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    exact View.read_writes_eq_canon _ _ _ (coverO _)
  iexists f9; isplitr; · ipureintro; rfl
  iexact H9

set_option maxHeartbeats 1000000 in
/-- The body at a point whose row tile is 0: the scratch buffer is first written whole, then read. -/
theorem sound_kernel1_A (c : Dev nD) (E : Set ℕ) (i : grid1.Coords)
    (arg2 : Memref sig .tc .vmem S1x1024x2048 .f32) (harg2 : arg2.IsWhole) (arg3 : Memref sig .tc .vmem S1x2048x64 .f32) (harg3 : arg3.IsWhole)
    (arg4 : Memref sig .tc .vmem S64x64 .f32) (harg4 : arg4.IsWhole) (arg5 : Memref sig .tc .vmem S64 .f32) (harg5 : arg5.IsWhole)
    (arg6 : Memref sig .tc .vmem S1x2048x1 .f32) (harg6 : arg6.IsWhole) (arg7 : Memref sig .tc .vmem S1x1024x1 .f32) (harg7 : arg7.IsWhole)
    (arg8 : Memref sig .tc .vmem S1x1024x64 .f32) (harg8 : arg8.IsWhole) (arg9 : Memref sig .tc .vmem S2048x64 .bf16) (harg9 : arg9.IsWhole)
    (hc : cond1 i) (x0 : Vec F S1x1024x2048 .f32) (x1 : Vec F S1x2048x64 .f32) (x2 : Vec F S64x64 .f32) (x3 : Vec F S64 .f32) (x4 : Vec F S1x2048x1 .f32) (x5 : Vec F S1x1024x1 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
            ∗ owns (c : Thread nD τ) arg8 fullShare (out1_6 (supp1 x1 x2 x4) x0 x5 x3) ∗ owns (c : Thread nD τ) arg9 fullShare (supp1 x1 x2 x4)) -∗ K ⟨⟩))
      ⊢ wp frame (wpE (defs₀ (F := F)) Variants.none c none) E (cc1__main_kernel i arg2 harg2 arg3 harg3 arg4 harg4 arg5 harg5 arg6 harg6 arg7 harg7 arg8 harg8 arg9 harg9) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, Hk⟩
  subst hf0; subst hf1; subst hf2; subst hf3; subst hf4; subst hf5
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H8]
  · iexists _; isplitr
    swap; · iexact H8
    ipureintro
    sl_unfold_run_names
    rw [View.readCov_eq_canon_ld _ _ _ (coverS _)]
    exact View.read_writes_eq_canon _ _ _ (coverO _)
  iexists _; isplitr
  swap; · iexact H9
  ipureintro
  exact View.read_writes_eq_canon _ _ _ (coverS _)

/-! # The second kernel as a pipeline: the windows' blocks, the proof data, the body obligation -/

variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Proof data with the region's arrays and nothing else: a carrier for the library's facts about fetched blocks. -/
def datA (c : Dev nD) : Dat τ (Elt F) Unit ℕ (UR sig nD τ) ℕ cfg1 c where
  A w := V c (Pipeline.arrRef spec1 w)
  after _ _ := fun _ => Classical.arbitrary _
  Φ _ := iprop(emp)
  q _ := fullShare
  owed _ := 0

/-- Two points at which window 1 has one block index read one block. -/
theorem iblk1_congr_1 (c : Dev nD) {t t' : Fin cfg1.N} (h : (cfg1.win 1).index t = (cfg1.win 1).index t') :
    iblk1 V c 1 t = iblk1 V c 1 t' := by
  have e : ∀ s d, (datA V c).fetched 1 s d = iblk1 V c 1 s := fun s d => by unfold Dat.fetched Dat.blockOf iblk1; rfl
  rw [← e t (iblk1 V c 1 t), ← e t' (iblk1 V c 1 t)]
  exact (datA V c).fetched_congr 1 h rfl _

/-- Two points at which window 2 has one block index read one block. -/
theorem iblk1_congr_2 (c : Dev nD) {t t' : Fin cfg1.N} (h : (cfg1.win 2).index t = (cfg1.win 2).index t') :
    iblk1 V c 2 t = iblk1 V c 2 t' := by
  have e : ∀ s d, (datA V c).fetched 2 s d = iblk1 V c 2 s := fun s d => by unfold Dat.fetched Dat.blockOf iblk1; rfl
  rw [← e t (iblk1 V c 2 t), ← e t' (iblk1 V c 2 t)]
  exact (datA V c).fetched_congr 2 h rfl _

/-- Two points at which window 4 has one block index read one block. -/
theorem iblk1_congr_4 (c : Dev nD) {t t' : Fin cfg1.N} (h : (cfg1.win 4).index t = (cfg1.win 4).index t') :
    iblk1 V c 4 t = iblk1 V c 4 t' := by
  have e : ∀ s d, (datA V c).fetched 4 s d = iblk1 V c 4 s := fun s d => by unfold Dat.fetched Dat.blockOf iblk1; rfl
  rw [← e t (iblk1 V c 4 t), ← e t' (iblk1 V c 4 t)]
  exact (datA V c).fetched_congr 4 h rfl _

/-- What the scratch buffer holds after point t: the scaled projected features of the point's batch. At a point of
    row tile 0 the body has just stored them; at a point of row tile 1 the point before stored them, and the
    features', the weights' and the column scale's blocks have not moved. -/
def scr1 (c : Dev nD) (t : Fin cfg1.N) : Vec F S2048x64 .bf16 :=
  supp1 (iblk1 V c 1 t) (iblk1 V c 2 t) (iblk1 V c 4 t)

/-- The three windows the scratch buffer is computed from keep their block from an even point to the next. -/
theorem scr1_pred (c : Dev nD) (t : Fin cfg1.N) (h : ¬ t.val % 2 = 0) (h' : t.val - 1 < cfg1.N) :
    scr1 V c ⟨t.val - 1, h'⟩ = scr1 V c t := by
  have e1 := ((cfg1.win 1).index_eq_of_fetch rfl t (by rw [Bool.eq_false_iff]; exact fun hf => h ((fetch1_1 t).mp hf))).2
  have e2 := ((cfg1.win 2).index_eq_of_fetch rfl t (by rw [Bool.eq_false_iff]; exact fun hf => h (by have := (fetch1_2 t).mp hf; omega))).2
  have e4 := ((cfg1.win 4).index_eq_of_fetch rfl t (by rw [Bool.eq_false_iff]; exact fun hf => h ((fetch1_4 t).mp hf))).2
  unfold scr1
  rw [iblk1_congr_1 V c e1.symm, iblk1_congr_2 V c e2.symm, iblk1_congr_4 V c e4.symm]

/-- The scratch operand, a whole scoped buffer of the kernel's own. -/
abbrev scM : Memref sig .tc .vmem S2048x64 .bf16 := Memref.whole cc1_scratch0

/-- The first kernel's four staging buffers, each held whole at some contents: scoped buffers the second kernel never touches. -/
def rest4 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f))

/-- The scoped rest and the generator register, the scratch operand as a memref owned at some contents: one way, -/
theorem PhiA1_split (c : Dev nD) :
    (Pipeline.ΦA spec1 c : sProp 𝕄)
      ⊢ iprop(iprop(rest4 c ∗ (∃ d, owns (c : Thread nD τ) scM fullShare d)) ∗ (∃ r, prngReg c r)) := by
  unfold Pipeline.ΦA rest4; rw [scopedRest1_eq]; simp only [scM, owns_whole]
  iintro ⟨⟨H0, H1, H2, H3, H4⟩, Hg⟩
  isplitr [Hg]
  · isplitr [H4]
    · isplitl [H0]; · iexact H0
      isplitl [H1]; · iexact H1
      isplitl [H2]; · iexact H2
      iexact H3
    iexact H4
  iexact Hg

/-- and the other. -/
theorem PhiA1_join (c : Dev nD) :
    iprop(iprop(rest4 c ∗ (∃ d, owns (c : Thread nD τ) scM fullShare d)) ∗ (∃ r, prngReg c r))
      ⊢ (Pipeline.ΦA spec1 c : sProp 𝕄) := by
  unfold Pipeline.ΦA rest4; rw [scopedRest1_eq]; simp only [scM, owns_whole]
  iintro ⟨⟨⟨H0, H1, H2, H3⟩, H4⟩, Hg⟩
  isplitr [Hg]
  · isplitl [H0]; · iexact H0
    isplitl [H1]; · iexact H1
    isplitl [H2]; · iexact H2
    isplitl [H3]; · iexact H3
    iexact H4
  iexact Hg

/-- The region invariant before position n: before the first point every scoped buffer at anything; afterwards the
    scratch buffer at what the point before left in it. -/
def Phi1 (c : Dev nD) : (n : ℕ) → n ≤ cfg1.N → sProp 𝕄
  | 0, _ => Pipeline.ΦA spec1 c
  | n + 1, hn => iprop(iprop(rest4 c ∗ owns (c : Thread nD τ) scM fullShare (scr1 V c ⟨n, hn⟩)) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(rest4 c ∗ owns (c : Thread nD τ) scM fullShare (scr1 V c ⟨n, hn⟩)) ∗ (∃ r, prngReg c r)) := rfl

theorem Phi1_pos (c : Dev nD) (n : ℕ) (h : n ≤ cfg1.N) (hz : n ≠ 0) :
    Phi1 V c n h = iprop(iprop(rest4 c ∗ owns (c : Thread nD τ) scM fullShare (scr1 V c ⟨n - 1, by omega⟩)) ∗ (∃ r, prngReg c r)) := by
  cases n with
  | zero => exact absurd rfl hz
  | succ n => rfl

/-- The proof data of the second pipeline on core c: the arrays as the region finds them; after the body each input's
    buffer at its block and the output's at the body's result on the point's blocks; the scratch buffer carried in the
    invariant; nothing owed. The column scale and the row scale are two windows on one array, which they hold at
    the two halves of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (scr1 V c t) (iblk1 V c 0 t) (iblk1 V c 5 t) (iblk1 V c 3 t)
  Φ t := Phi1 V c t.val (Nat.le_of_lt_succ t.isLt)
  q w := match w with
    | ⟨4, _⟩ => fullShare.left
    | ⟨5, _⟩ => fullShare.right
    | _ => fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (scr1 V c t) (iblk1 V c 0 t) (iblk1 V c 5 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 4000000 in
/-- The body at any point: the inputs' memrefs hold their blocks; the point's row tile says which case it is in;
    the invariant hands the body the scratch buffer (at anything before the first point, else at what the point
    before left) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl,
    show (dat1 V c).Φ t.succ = Phi1 V c (t.val + 1) t.isLt from rfl, Phi1_succ,
    after1_0, after1_1, after1_2, after1_3, after1_4, after1_5, after1_6, Phi1_castSucc V c t]
  by_cases h0 : t.val % 2 = 0
  · have hc : cond1 (grid1.coords t) := (hcond1 t).mpr h0
    have hΦ : (Phi1 V c t.val (Nat.le_of_lt t.isLt) : sProp 𝕄) ⊢ iprop(iprop(rest4 c ∗ (∃ d, owns (c : Thread nD τ) scM fullShare d)) ∗ (∃ r, prngReg c r)) := by
      by_cases hz : t.val = 0
      · rw [Phi1_zero V c _ _ hz]; exact PhiA1_split c
      · rw [Phi1_pos V c _ _ hz]
        iintro ⟨⟨Hr, HS⟩, Hg⟩
        isplitr [Hg]
        · isplitl [Hr]; · iexact Hr
          iexists _; iexact HS
        iexact Hg
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ' := hΦ $$ HΦ
    icases HΦ' with ⟨⟨Hr, HS⟩, Hg⟩
    iapply (sound_kernel1_A c Set.univ _ _ _ _ _ _ _ _ _ _ _ _ _ _ _ _ _ hc (iblk1 V c 0 t) (iblk1 V c 1 t) (iblk1 V c 2 t) (iblk1 V c 3 t) (iblk1 V c 4 t) (iblk1 V c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hr HS Hg]
    · isplitr [Hg]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hc : ¬cond1 (grid1.coords t) := fun h => h0 ((hcond1 t).mp h)
    have hz : t.val ≠ 0 := fun e => h0 (by rw [e])
    rw [Phi1_pos V c _ _ hz, ← scr1_pred V c t h0 (by omega)]
    iintro ⟨⟨⟨Hr, HS⟩, Hg⟩, Ho, ⟨%d0, H0⟩, ⟨%d1, H1⟩, ⟨%d2, H2⟩, ⟨%d3, H3⟩, ⟨%d4, H4⟩, ⟨%d5, H5⟩, ⟨%d6, H6⟩⟩
    iapply (sound_kernel1_B c Set.univ _ _ _ _ _ _ _ _ _ _ _ _ _ _ _ _ _ hc (iblk1 V c 0 t) (iblk1 V c 1 t) (iblk1 V c 2 t) (iblk1 V c 3 t) (iblk1 V c 4 t) (iblk1 V c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS]; · iexact HS
    iintro ⟨H0, H1, H2, H3, H4, H5, H6, HS⟩
    isplitl [Hr HS Hg]
    · isplitr [Hg]
      · isplitl [Hr]; · iexact Hr
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]

/-- The invariant after a point gives the scoped rest back, the scratch buffer's contents forgotten. -/
theorem Phi_forget (c : Dev nD) (s : Vec F S2048x64 .bf16) :
    iprop(iprop(rest4 c ∗ owns (c : Thread nD τ) scM fullShare s) ∗ (∃ r, prngReg c r)) ⊢ (Pipeline.ΦA spec1 c : sProp 𝕄) := by
  have h : iprop(iprop(rest4 c ∗ owns (c : Thread nD τ) scM fullShare s) ∗ (∃ r, prngReg c r))
      ⊢ (iprop(iprop(rest4 c ∗ (∃ d, owns (c : Thread nD τ) scM fullShare d)) ∗ (∃ r, prngReg c r)) : sProp 𝕄) := by
    iintro ⟨⟨Hr, HS⟩, Hg⟩
    isplitr [Hg]
    · isplitl [Hr]; · iexact Hr
      iexists _; iexact HS
    iexact Hg
  exact h.trans (PhiA1_join c)

/-- So it does after the last point. -/
theorem hout1 (c : Dev nD) : (dat1 V c).Φ (Fin.last cfg1.N) ⊢ Pipeline.ΦA spec1 c := by
  rw [show (dat1 V c).Φ (Fin.last cfg1.N) = Phi1 V c (Fin.last cfg1.N).val (Nat.le_of_lt_succ (Fin.last cfg1.N).isLt) from rfl,
    Phi1_pos V c _ _ (by rw [Fin.val_last]; have : cfg1.N = 32 := N_1; omega)]
  exact Phi_forget c _

end Cert.KernelIdeal.Frm
end
-- ==== Proof.KI.Arrays1.lean ====
/-
  The second kernel's arrays at its entry and at its exit.

  The pipeline holds one points-to per window; the launch hands it, and takes back, one points-to per buffer.  Five
  of the seven windows are each alone on their buffer.  The column scale and the row scale (windows 4 and 5) are
  two windows on one buffer, which they hold at the two halves of the full share: at the entry the buffer's full
  points-to is split in two, at the exit the two halves, which hold the same contents because an input array is
  never written, are joined again.
-/
import proofs.«160742_j10926396801181_2_alg».proof.Proof.KI.Region1

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers behind the second kernel's arrays, one by one. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_arg1) ↦{fullShare} V' main_arg1) ∗ (((c : Thread nD τ).loc main_arg0) ↦{fullShare} V' main_arg0)
        ∗ (((c : Thread nD τ).loc main_arg2) ↦{fullShare} V' main_arg2) ∗ (((c : Thread nD τ).loc main_arg3) ↦{fullShare} V' main_arg3)
        ∗ (((c : Thread nD τ).loc main_v0) ↦{fullShare} V' main_v0) ∗ (((c : Thread nD τ).loc main_v1) ↦{fullShare} V' main_v1)) := by
  unfold Pipeline.arrBufs
  exact (bigSep_eq_bigSepL_of_eq [main_arg1, main_arg0, main_arg2, main_arg3, main_v0, main_v1] (by decide) (by decide) _).trans rfl

variable (V : (c : Dev nD) → (b : Ref sig .tc) → Buf (Elt F) ((c : Thread nD τ).loc b))

/-- The windows' arrays, one by one: each a whole buffer, at the full share but for the two windows on one buffer. -/
theorem arrays1_eq (c : Dev nD) (G : (w : Fin cfg1.W) → Buf (Elt F) ((cfg1.win w).arr.view.loc (c : Thread nD τ))) :
    (dat1 V c).arrays G
      = iprop((((c : Thread nD τ).loc main_arg1) ↦{fullShare} G 0) ∗ (((c : Thread nD τ).loc main_arg0) ↦{fullShare} G 1)
        ∗ (((c : Thread nD τ).loc main_arg2) ↦{fullShare} G 2) ∗ (((c : Thread nD τ).loc main_arg3) ↦{fullShare} G 3)
        ∗ (((c : Thread nD τ).loc main_v0) ↦{fullShare.left} G 4) ∗ (((c : Thread nD τ).loc main_v0) ↦{fullShare.right} G 5)
        ∗ (((c : Thread nD τ).loc main_v1) ↦{fullShare} G 6)) := by
  unfold Dat.arrays
  rw [bigSep_W1]
  have s0 : (cfg1.win 0).arr.view.set = Finset.univ := (arr_whole1 0).set_eq_univ
  have s1 : (cfg1.win 1).arr.view.set = Finset.univ := (arr_whole1 1).set_eq_univ
  have s2 : (cfg1.win 2).arr.view.set = Finset.univ := (arr_whole1 2).set_eq_univ
  have s3 : (cfg1.win 3).arr.view.set = Finset.univ := (arr_whole1 3).set_eq_univ
  have s4 : (cfg1.win 4).arr.view.set = Finset.univ := (arr_whole1 4).set_eq_univ
  have s5 : (cfg1.win 5).arr.view.set = Finset.univ := (arr_whole1 5).set_eq_univ
  have s6 : (cfg1.win 6).arr.view.set = Finset.univ := (arr_whole1 6).set_eq_univ
  have q0 : (dat1 V c).share 0 = fullShare := rfl
  have q1 : (dat1 V c).share 1 = fullShare := rfl
  have q2 : (dat1 V c).share 2 = fullShare := rfl
  have q3 : (dat1 V c).share 3 = fullShare := rfl
  have q4 : (dat1 V c).share 4 = fullShare.left := rfl
  have q5 : (dat1 V c).share 5 = fullShare.right := rfl
  have q6 : (dat1 V c).share 6 = fullShare := rfl
  rw [q0, q1, q2, q3, q4, q5, q6]
  simp only [s0, s1, s2, s3, s4, s5, s6]

/-- At the entry: the buffers at the launch contents make the pipeline's arrays, the shared buffer split in halves. -/
theorem arrays1_of_bufs (c : Dev nD) :
    (Pipeline.arrBufs (Ix := Unit) (Name := ℕ) (U := UR sig nD τ) (Lvl := ℕ) spec1 c (V c) : sProp 𝕄)
      ⊢ (dat1 V c).arrays ((dat1 V c).arrAt · 0) := by
  rw [arrBufs1_eq, arrays1_eq]
  have e0 : (dat1 V c).arrAt 0 0 = V c main_arg1 := rfl
  have e1 : (dat1 V c).arrAt 1 0 = V c main_arg0 := rfl
  have e2 : (dat1 V c).arrAt 2 0 = V c main_arg2 := rfl
  have e3 : (dat1 V c).arrAt 3 0 = V c main_arg3 := rfl
  have e4 : (dat1 V c).arrAt 4 0 = V c main_v0 := rfl
  have e5 : (dat1 V c).arrAt 5 0 = V c main_v0 := rfl
  have e6 : (dat1 V c).arrAt 6 0 = V c main_v1 := rfl
  rw [e0, e1, e2, e3, e4, e5, e6]
  iintro ⟨H1, H0, H2, H3, Hv0, Hv1⟩
  ihave Hv := (pointsTo_share (PosShare.mem_left_op_right fullShare)).1 $$ Hv0
  icases Hv with ⟨Hl, Hr⟩
  isplitl [H1]; · iexact H1
  isplitl [H0]; · iexact H0
  isplitl [H2]; · iexact H2
  isplitl [H3]; · iexact H3
  isplitl [Hl]; · iexact Hl
  isplitl [Hr]; · iexact Hr
  iexact Hv1

/-- At the exit: the pipeline's arrays after every write-back make the buffers at contents that are the output array
    on the output buffer and the launch contents elsewhere, the shared buffer's halves joined. -/
theorem bufs_of_arrays1 (c : Dev nD) (V' : (b : Ref sig .tc) → Buf (Elt F) ((c : Thread nD τ).loc b))
    (h1 : V' main_v1 = (dat1 V c).arrAt 6 cfg1.N) (hrest : ∀ b : Ref sig .tc, b ≠ main_v1 → V' b = V c b) :
    (dat1 V c).arrays ((dat1 V c).arrAt · cfg1.N)
      ⊢ (Pipeline.arrBufs (Ix := Unit) (Name := ℕ) (U := UR sig nD τ) (Lvl := ℕ) spec1 c V' : sProp 𝕄) := by
  rw [arrBufs1_eq, arrays1_eq]
  have e0 : (dat1 V c).arrAt 0 cfg1.N = V' main_arg1 :=
    ((dat1 V c).arrAt_in 0 rfl cfg1.N).trans (hrest main_arg1 (by decide)).symm
  have e1 : (dat1 V c).arrAt 1 cfg1.N = V' main_arg0 :=
    ((dat1 V c).arrAt_in 1 rfl cfg1.N).trans (hrest main_arg0 (by decide)).symm
  have e2 : (dat1 V c).arrAt 2 cfg1.N = V' main_arg2 :=
    ((dat1 V c).arrAt_in 2 rfl cfg1.N).trans (hrest main_arg2 (by decide)).symm
  have e3 : (dat1 V c).arrAt 3 cfg1.N = V' main_arg3 :=
    ((dat1 V c).arrAt_in 3 rfl cfg1.N).trans (hrest main_arg3 (by decide)).symm
  have e4 : (dat1 V c).arrAt 4 cfg1.N = V' main_v0 :=
    ((dat1 V c).arrAt_in 4 rfl cfg1.N).trans (hrest main_v0 (by decide)).symm
  have e5 : (dat1 V c).arrAt 5 cfg1.N = V' main_v0 :=
    ((dat1 V c).arrAt_in 5 rfl cfg1.N).trans (hrest main_v0 (by decide)).symm
  have e6 : (dat1 V c).arrAt 6 cfg1.N = V' main_v1 := h1.symm
  rw [e0, e1, e2, e3, e4, e5, e6]
  iintro ⟨H1, H0, H2, H3, Hl, Hr, Hv1⟩
  ihave Hv := (pointsTo_share (PosShare.mem_left_op_right fullShare)).2 $$ [Hl Hr]
  · isplitl [Hl] <;> iassumption
  isplitl [H1]; · iexact H1
  isplitl [H0]; · iexact H0
  isplitl [H2]; · iexact H2
  isplitl [H3]; · iexact H3
  isplitl [Hv]; · iexact Hv
  iexact Hv1

end Cert.KernelIdeal.Frm

end
-- ==== Proof.KI.Run.lean ====
import proofs.«160742_j10926396801181_2_alg».proof.Proof.Gen.KernelIdeal.Launch
import proofs.«160742_j10926396801181_2_alg».proof.Proof.Gen.KernelIdeal.Skeleton
import proofs.«160742_j10926396801181_2_alg».proof.Proof.Gen.KernelIdeal.Points
import proofs.«160742_j10926396801181_2_alg».proof.Proof.KI.Region0
import proofs.«160742_j10926396801181_2_alg».proof.Proof.KI.Region1
import proofs.«160742_j10926396801181_2_alg».proof.Proof.KI.Arrays1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the whole program: the two kernels as regions of @main, entered one after the other -/

variable (m : (ℓ : Loc nD τ sig) → Buf (Elt F) ℓ) (ρ : Dev nD → PrngReg)

/-- Core c's buffers at launch. -/
abbrev W0 : Dev nD → Valuation τ sig (Elt F) := fun c b => m (c, b)
/-- The same read at the TensorCore's references (what the first kernel's proof data take). -/
abbrev VV0 : (c : Dev nD) → (b : Ref sig .tc) → Buf (Elt F) ((c : Thread nD τ).loc b) := fun c b => W0 m c b
/-- After the first kernel: its arrays at what the pipeline leaves (the adjacency as entered, the scale array's
    write-backs folded), every other buffer as entered. -/
def W1 (c : Dev nD) : Valuation τ sig (Elt F) :=
  Pipeline.withArrays spec0 c (W0 m c) fun w => (dat0 (VV0 m) c).arrAt w cfg0.N
theorem W1_arr (c : Dev nD) (w : Fin cfg0.W) :
    W1 m c (Proc.devRef .tc (Pipeline.arrRef spec0 w)) = (dat0 (VV0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
/-- The same read at the TensorCore's references (what the second kernel's proof data take). -/
abbrev VV1 : (c : Dev nD) → (b : Ref sig .tc) → Buf (Elt F) ((c : Thread nD τ).loc b) := fun c b => W1 m c b
theorem hF0 (c : Dev nD) (w : Fin cfg0.W) : (dat0 (VV0 m) c).arrAt w cfg0.N = VV1 m c (Pipeline.arrRef spec0 w) :=
  (W1_arr m c w).symm
theorem hrest0 (c : Dev nD) : ∀ b, b ∉ Finset.univ.image (Pipeline.arrRef spec0) → VV1 m c b = VV0 m c b :=
  fun b hb => W1_of_ne m c b fun w e => hb (Finset.mem_image.mpr ⟨w, Finset.mem_univ _, e⟩)

/-- After the second kernel: the result array at what the pipeline leaves, every other buffer as the second kernel found it. -/
def W2 (c : Dev nD) : Valuation τ sig (Elt F) :=
  Function.update (W1 m c) (Proc.devRef .tc main_v1) ((dat1 (VV1 m) c).arrAt 6 cfg1.N)
abbrev VV2 : (c : Dev nD) → (b : Ref sig .tc) → Buf (Elt F) ((c : Thread nD τ).loc b) := fun c b => W2 m c b
theorem W2_v1 (c : Dev nD) : VV2 m c main_v1 = (dat1 (VV1 m) c).arrAt 6 cfg1.N := by
  show W2 m c (Proc.devRef .tc main_v1) = _
  unfold W2; rw [Function.update_self]
theorem W2_of_ne (c : Dev nD) (b : Ref sig .tc) (hb : b ≠ main_v1) : VV2 m c b = VV1 m c b := by
  show W2 m c (Proc.devRef .tc b) = W1 m c (Proc.devRef .tc b)
  unfold W2; rw [Function.update_of_ne (StableHlo.devRef_ne_of_ne hb)]

/-- The prefetched tables' admissible contents: no pipeline has a table. -/
abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (VV0 m) c
  | ⟨1, _⟩ => fun c => dat1 (VV1 m) c
abbrev 𝒱₀ : Variants := Variants.none
abbrev L : GSem nD τ sig → Finset Unit := fun _ => ∅
abbrev lv : GSem nD τ sig → Unit → ℕ := fun _ _ => 0
/-- What rides beside the buffers through both regions: the core's generator register at some state and its owes, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last contents, the generator register at some state. -/
abbrev Tₙ (c : Dev nD) : sProp 𝕄 := iprop(StableHlo.held (c : Thread nD τ) (Pipeline.ucRefs τ sig) (W2 m c) ∗ ∃ r, prngReg c r)

set_option backward.isDefEq.respectTransparency.types false in
/-- The first kernel over the thread state: entered from every unscoped buffer at the launch contents, left with the
    scale array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (VV0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (VV0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (VV0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (VV0 m c) (VV1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel over the thread state: entered from the buffers as the first kernel left them, left with the
    result array at what its write-backs leave. Two of its windows are on the scale array: the array's full share is
    dealt to them in halves at the entry and joined again at the exit. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (VV1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (VV1 m c)
  hentry c := by
    rw [Pipeline.ownSems0_none]
    have hub := Pipeline.unscopedBufs_split₀ (Ix := Unit) (Name := ℕ) (U := UR sig nD τ) (Lvl := ℕ) (Pipeline.pin (pcfgs (F := F)) adm) 1
      winFacts₀1.arr_unscoped c (VV1 m c)
    rw [Pipeline.unscopedBufs_held] at hub
    rw [hub]
    iintro ⟨⟨⟨Hb, Hrest⟩, Hp, HO⟩, -, -⟩
    ihave Ha := (arrays1_of_bufs (VV1 m) c) $$ Hb
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 1).pre c (fun _ => fullShare) (adm (F := F) 1).1
          ∗ Pipeline.scopedRest (Ix := Unit) (Name := ℕ) (U := UR sig nD τ) (Lvl := ℕ) (Val := Elt F) spec1 c)
        ⊢ (Pipeline.ΦA spec1 c : sProp 𝕄) := by
      unfold Pipeline.ΦA
      iintro ⟨Hp, -, Hr⟩
      isplitl [Hr]; · iexact Hr
      iexact Hp
    exact h.trans (hin1 (VV1 m) c)
  hout c := by
    rw [Pipeline.ownSems0_none]
    have h : (Pipeline.ΦA spec1 c : sProp 𝕄)
        ⊢ iprop((∃ r, prngReg c r) ∗ BI.emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (VV1 m) c).trans h
  hexit c := by
    have hub := Pipeline.unscopedBufs_split₀ (Ix := Unit) (Name := ℕ) (U := UR sig nD τ) (Lvl := ℕ) (Pipeline.pin (pcfgs (F := F)) adm) 1
      winFacts₀1.arr_unscoped c (VV2 m c)
    rw [Pipeline.unscopedBufs_held] at hub
    have hZ : (Pipeline.unscopedRest (Ix := Unit) (Name := ℕ) (U := UR sig nD τ) (Lvl := ℕ) spec1 c (VV1 m c) : sProp 𝕄)
        = Pipeline.unscopedRest spec1 c (VV2 m c) := by rw [unscopedRest1_eq, unscopedRest1_eq]
    have hjoin : ((pdats m 1 c).arrays fun x => (pdats m 1 c).arrAt x (Pipeline.pin (pcfgs (F := F)) adm 1).N)
        ⊢ (Pipeline.arrBufs (Ix := Unit) (Name := ℕ) (U := UR sig nD τ) (Lvl := ℕ) spec1 c (VV2 m c) : sProp 𝕄) :=
      bufs_of_arrays1 (VV1 m) c (VV2 m c) (W2_v1 m c) (fun b hb => W2_of_ne m c b hb)
    unfold Tₙ
    rw [hub, hZ]
    iintro ⟨Ha, HO, HY, Hrest⟩
    ihave Hb := hjoin $$ Ha
    imodintro
    isplitl [Hb Hrest HY]
    · isplitl [Hb Hrest]
      · isplitl [Hb]; · iexact Hb
        iexact Hrest
      iexact HY
    unfold Pipeline.Dat.owesAt Pipeline.owesWithin
    icases HO with ⟨%W, -, HO⟩; iexists W; iexact HO

/-- @main's two regions in order. -/
abbrev segs : List (Pipeline.Seg (pcfgs (F := F)) adm (pdats m) () defs₀ 𝒱₀ L lv) :=
  [ .region (reg0 m), .region (reg1 m) ]

set_option backward.isDefEq.respectTransparency.types false in
/-- THE RUN: from any memory with zero counters every weakly fair execution of @main on the TensorCores terminates,
    nothing faulting, and every final state holds every unscoped buffer at the last contents: the result array at what
    the second pipeline's write-backs leave, every other buffer as it was found. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m c b) :=
  Pipeline.θ_run_regions_kit (pcfgs (F := F)) adm (pdats m) () cellOf_inj emb₁ defs₀ 𝒱₀ L lv m ρ main (segs m)
    (fun c Q => by rw [main_segs adm (pdats m) () 𝒱₀ L lv (reg0 m) (reg1 m) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c => h c)

/-- The arguments end as launched: neither kernel writes one. -/
theorem W2_arg (c : Dev nD) (b : Ref sig .tc) (h1 : b ≠ main_v1) (h0 : b ≠ main_v0) (hb : ∀ w, Pipeline.arrRef spec0 w = b → w = 0) :
    W2 m c (Proc.devRef .tc b) = m ((c : Thread nD τ).loc b) := by
  have e2 : W2 m c (Proc.devRef .tc b) = W1 m c (Proc.devRef .tc b) := W2_of_ne m c b h1
  rw [e2]
  by_cases hw : ∃ w, Pipeline.arrRef spec0 w = b
  · obtain ⟨w, rfl⟩ := hw
    obtain rfl := hb w rfl
    exact (W1_arr m c 0).trans (((dat0 (VV0 m) c).arrAt_in 0 rfl _).trans (A_eq0 (VV0 m) c 0))
  · exact W1_of_ne m c b fun w e => hw ⟨w, e⟩

end Cert.KernelIdeal.Frm
end
-- ==== Proof.Spec.lean ====
/-
  The graph convolution both programs compute, written once as a function of the four argument arrays.

  For a batch b the degree of node n is the row sum deg b n = Σ_m adj b n m, and its scale is
  d(s) = s^(-1/2) where the degree s is positive and 0 elsewhere.  The layer's output at (b, n, o) is
      max ( (Σ_m adj b n m · ((Σ_i x b m i · W i o) · d (deg b m))) · d (deg b n) + bias o , 0 ).
  This is the arrangement in which the column scale is folded onto the projected features and the row
  scale is applied after the contraction over m.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The four argument shapes and the result's. -/
abbrev TX : Shape := ⟨3, ![16, 2048, 64]⟩
abbrev TA : Shape := ⟨3, ![16, 2048, 2048]⟩
abbrev TW : Shape := ⟨2, ![64, 64]⟩
abbrev TB : Shape := ⟨1, ![64]⟩

/-- The scale of a degree: its inverse square root where it is positive, zero elsewhere. -/
def dscale (s : EReal) : EReal := Scalar.select (Ideal.cmp .ogt s 0) (Ideal.rsqrt s) 0

/-- The degree of node n of batch b: the sum of row n of the adjacency matrix. -/
def deg (adj : TA.Idx → EReal) (b : Fin 16) (n : Fin 2048) : EReal := ∑ m : Fin 2048, adj (ix3 b n m)

/-- The projected features x · W at node m, output channel o. -/
def proj (x : TX.Idx → EReal) (W : TW.Idx → EReal) (b : Fin 16) (m : Fin 2048) (o : Fin 64) : EReal :=
  ∑ i : Fin 64, x (ix3 b m i) * W (ix2 i o)

/-- The projected features with the column scale folded on. -/
def sproj (x : TX.Idx → EReal) (adj : TA.Idx → EReal) (W : TW.Idx → EReal) (b : Fin 16) (m : Fin 2048) (o : Fin 64) : EReal :=
  proj x W b m o * dscale (deg adj b m)

/-- The layer's output at batch b, node n, channel o. -/
def out (x : TX.Idx → EReal) (adj : TA.Idx → EReal) (W : TW.Idx → EReal) (bias : TB.Idx → EReal)
    (b : Fin 16) (n : Fin 2048) (o : Fin 64) : EReal :=
  max ((∑ m : Fin 2048, adj (ix3 b n m) * sproj x adj W b m o) * dscale (deg adj b n) + bias (ix1 o)) 0

/-- The whole result array. -/
def G (x : TX.Idx → EReal) (adj : TA.Idx → EReal) (W : TW.Idx → EReal) (bias : TB.Idx → EReal) : TX.Idx → EReal :=
  fun j => out x adj W bias (j 0) (j 1) (j 2)

theorem G_ix3 (x : TX.Idx → EReal) (adj : TA.Idx → EReal) (W : TW.Idx → EReal) (bias : TB.Idx → EReal)
    (b : Fin 16) (n : Fin 2048) (o : Fin 64) : G x adj W bias (ix3 b n o) = out x adj W bias b n o := rfl

end Cert.Spec

end
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.PayLib.lean ====
/-
  Layout operations of the kernel's payloads read at an index given by coordinates, and the coordinate facts of its
  two matrix-product dimension records.

  A cast between shapes keeps the row-major position, so a column [a] cast to [a, 1] reads its entry i at (i, 0), and
  a cast of [a, b] to itself reads the same entry.  A column [a, 1] broadcast along the second axis to [a, b] reads at
  (p, c) its entry (p, 0).  A matrix product whose dimension numbers contract the second axis of the left operand with
  the first axis of the right operand has left index (row, contraction) and right index (contraction, column).
-/
import proofs.«160742_j10926396801181_2_alg».proof.Proof.Gen.KernelIdeal.Skeleton
import proofs.«160742_j10926396801181_2_alg».proof.Proof.LibMatmul
import Idealize.ShloMosaic.Lib.ValueLayout
import Idealize.ShloMosaic.Lib.ValueIdx
import Idealize.ShloMosaic.PureOps.Ideal.Laws

noncomputable section

namespace Cert.KernelIdeal.Pay

open Cert.KernelIdeal Cert.KernelIdeal.Gen Idealize.ShloMosaic Idealize.ShloMosaic.ValueIdx

variable {α : Type}

/-! ## Casts and a broadcast that keep or add a trailing unit axis -/

/-- An [a, b] array cast to [a, b] reads, at (i, j), the operand at (i, j). -/
theorem shapeCast_ab_ab_apply {a b : ℕ} (x : (⟨2, ![a, b]⟩ : Shape).Idx → α)
    (h : (⟨2, ![a, b]⟩ : Shape).ShapeCasts ⟨2, ![a, b]⟩) (i : Fin a) (j : Fin b) :
    shapeCast ⟨2, ![a, b]⟩ x h (ix2 i j) = x (ix2 i j) :=
  shapeCast_apply x h _ _ rfl

/-- An [a] array cast to [a, 1] reads, at (i, u), the operand at i, whatever the unit coordinate u. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's entry (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products' operand indices -/

section Dots
variable [Cert.KernelIdeal.Facts]

/-- The first product, [2048, 64] by [64, 64]: the left index is (row, contraction) … -/
theorem dotA_l0 (i : S2048x64.Idx) (q : dot_S2048x64_S64x64_S2048x64_1_0_0_1_n_n.contr.Idx) :
    (dot_S2048x64_S64x64_S2048x64_1_0_0_1_n_n.lhsIdx i q (0 : Fin 2)).val = (i (0 : Fin 2)).val := by
  unfold DotDims.lhsIdx
  rw [dif_neg (show ¬(0 : Fin S2048x64.rank) ∈ dot_S2048x64_S64x64_S2048x64_1_0_0_1_n_n.lhsBatch by decide),
    dif_pos (show (0 : Fin S2048x64.rank) ∈ dot_S2048x64_S64x64_S2048x64_1_0_0_1_n_n.lhsNonContracting by decide)]
  rfl
theorem dotA_l1 (i : S2048x64.Idx) (q : dot_S2048x64_S64x64_S2048x64_1_0_0_1_n_n.contr.Idx) :
    (dot_S2048x64_S64x64_S2048x64_1_0_0_1_n_n.lhsIdx i q (1 : Fin 2)).val = (q ⟨0, by decide⟩).val :=
  dot_S2048x64_S64x64_S2048x64_1_0_0_1_n_n.lhsIdx_val_of_single rfl i q
/-- … and the right index is (contraction, column). -/
theorem dotA_r0 (i : S2048x64.Idx) (q : dot_S2048x64_S64x64_S2048x64_1_0_0_1_n_n.contr.Idx) :
    (dot_S2048x64_S64x64_S2048x64_1_0_0_1_n_n.rhsIdx i q (0 : Fin 2)).val = (q ⟨0, by decide⟩).val :=
  dot_S2048x64_S64x64_S2048x64_1_0_0_1_n_n.rhsIdx_val_of_single rfl i q
theorem dotA_r1 (i : S2048x64.Idx) (q : dot_S2048x64_S64x64_S2048x64_1_0_0_1_n_n.contr.Idx) :
    (dot_S2048x64_S64x64_S2048x64_1_0_0_1_n_n.rhsIdx i q (1 : Fin 2)).val = (i (1 : Fin 2)).val := by
  unfold DotDims.rhsIdx
  rw [dif_neg (show ¬(1 : Fin S64x64.rank) ∈ dot_S2048x64_S64x64_S2048x64_1_0_0_1_n_n.rhsBatch by decide),
    dif_pos (show (1 : Fin S64x64.rank) ∈ dot_S2048x64_S64x64_S2048x64_1_0_0_1_n_n.rhsNonContracting by decide)]
  rfl

/-- The second product, [1024, 2048] by [2048, 64]: the same two facts. -/
theorem dotB_l0 (i : S1024x64.Idx) (q : dot_S1024x2048_S2048x64_S1024x64_1_0_0_1_n_n.contr.Idx) :
    (dot_S1024x2048_S2048x64_S1024x64_1_0_0_1_n_n.lhsIdx i q (0 : Fin 2)).val = (i (0 : Fin 2)).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl
theorem dotB_l1 (i : S1024x64.Idx) (q : dot_S1024x2048_S2048x64_S1024x64_1_0_0_1_n_n.contr.Idx) :
    (dot_S1024x2048_S2048x64_S1024x64_1_0_0_1_n_n.lhsIdx i q (1 : Fin 2)).val = (q ⟨0, by decide⟩).val :=
  dot_S1024x2048_S2048x64_S1024x64_1_0_0_1_n_n.lhsIdx_val_of_single rfl i q
theorem dotB_r0 (i : S1024x64.Idx) (q : dot_S1024x2048_S2048x64_S1024x64_1_0_0_1_n_n.contr.Idx) :
    (dot_S1024x2048_S2048x64_S1024x64_1_0_0_1_n_n.rhsIdx i q (0 : Fin 2)).val = (q ⟨0, by decide⟩).val :=
  dot_S1024x2048_S2048x64_S1024x64_1_0_0_1_n_n.rhsIdx_val_of_single rfl i q
theorem dotB_r1 (i : S1024x64.Idx) (q : dot_S1024x2048_S2048x64_S1024x64_1_0_0_1_n_n.contr.Idx) :
    (dot_S1024x2048_S2048x64_S1024x64_1_0_0_1_n_n.rhsIdx i q (1 : Fin 2)).val = (i (1 : Fin 2)).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

end Dots

end Cert.KernelIdeal.Pay

end
-- ==== Proof.Pay0.lean ====
/-
  The degree kernel's payload read at an index: the scale of a row's degree.

  The lane sum of a [1024, 2048] block at row r is the sum of that row's 2048 entries; the comparison against the
  zero constant with the select is the scale of Spec.lean: the inverse square root where the degree is positive and
  zero elsewhere.
-/
import proofs.«160742_j10926396801181_2_alg».proof.Proof.PayLib
import proofs.«160742_j10926396801181_2_alg».proof.Proof.Spec

noncomputable section

namespace Cert.KernelIdeal.Pay

open Cert.KernelIdeal Cert.KernelIdeal.Gen Idealize.ShloMosaic Idealize.ShloMosaic.ValueIdx

/-- Over row r of a matrix, the index with coordinate k inserted on the reduced second axis is (r, k). -/
theorem reduces_lift_row {a b : ℕ} (h : (⟨2, ![a, b]⟩ : Shape).Reduces [1] ⟨1, ![a]⟩) (r : Fin a) (k : Fin b) :
    h.lift (ix1 r) k = ix2 r k := by
  funext c
  refine Fin.ext ?_
  show Shape.Reduces.liftVal h (ix1 r) k.val c = (ix2 r k c).val
  unfold Shape.Reduces.liftVal
  match c with
  | ⟨0, _⟩ => rfl
  | ⟨1, _⟩ => rfl

/-- The sum over the second axis of a matrix, read at row r, is the sum of that row's entries. -/
theorem rowSum_apply {a b : ℕ} (v : FVec Ideal (⟨2, ![a, b]⟩ : Shape) .f32)
    (h : (⟨2, ![a, b]⟩ : Shape).Reduces [1] ⟨1, ![a]⟩) (hφ : FKind.Formats .f32)
    (hacc : (0x00000000#32 : BitVec 32) = FKind.add.neutral .f32 hφ) (r : Fin a) :
    multiReduction .add [1] ⟨1, ![a]⟩ v 0x00000000#32 h hφ hacc (ix1 r) = ∑ m : Fin b, v (ix2 r m) := by
  refine (Ideal.multiReduction_add_single v _ h hφ hacc (ix1 r)).trans ?_
  show ∑ k : Fin b, v (h.lift (ix1 r) k) = _
  refine Finset.sum_congr rfl fun k _ => ?_
  rw [reduces_lift_row]

/-- The comparison of a degree against the zero constant, selecting its inverse square root or the zero constant, is
    the scale of that degree. -/
theorem select_rsqrt_eq_dscale (s : Ideal .f32) (t : EReal) (h : s = t) :
    Scalar.select (FloatOps.cmpf .ogt s (Scalar.ofBits (F := Ideal) .f32 0x00000000#32)) (FloatOps.rsqrt s)
      (Scalar.ofBits (F := Ideal) .f32 0x00000000#32) = Cert.Spec.dscale t := by
  subst h
  unfold Cert.Spec.dscale
  rw [Ideal.cmpf_def, Ideal.rsqrt_def]
  show Scalar.select (Ideal.cmp .ogt s (Ideal.ofBits .f32 0x00000000#32)) _ (Ideal.ofBits .f32 0x00000000#32) = _
  rw [Ideal.ofBits_zero_f32]

variable [Cert.KernelIdeal.Facts]

/-- Entry (0, r, 0) of the block the degree kernel stores. -/
theorem pay0_apply (v0 : Vec Ideal S1x1024x2048 .f32) (r : Fin 1024) :
    k0_pay1 (F := Ideal) v0 (ix3 (0 : Fin 1) r (0 : Fin 1))
      = Cert.Spec.dscale (∑ m : Fin 2048, v0 (ix3 (0 : Fin 1) r m)) := by
  unfold k0_pay1
  refine (shapeCast_ab_1ab_apply _ _ (0 : Fin 1) r (0 : Fin 1)).trans ?_
  rw [select_apply, cmpf_apply, broadcast_apply]
  refine select_rsqrt_eq_dscale _ _ ?_
  refine (shapeCast_a_a1_apply _ _ r (0 : Fin 1)).trans ?_
  refine (rowSum_apply _ _ _ _ r).trans ?_
  refine Finset.sum_congr rfl fun m _ => ?_
  exact shapeCast_1ab_ab_apply _ _ r m

end Cert.KernelIdeal.Pay

end
-- ==== Proof.KI.Value0.lean ====
/-
  What region 0 leaves in its output array, as one function of the adjacency array.

  The grid has 16 x 2 points; point t = 2 b + q works on batch b and on the rows 1024 q ... 1024 q + 1023
  of that batch.  Its input block is those rows of the adjacency array (all 2048 columns) and its output
  block the same rows of the [16, 2048, 1] array.  The body stores at row r of the output block the scale
  of the sum of row r of the input block, so the point writes back the block of
      Dfun a = fun (b, n, 0) => dscale (deg a b n)
  that its rectangle names, and the 32 blocks cover the array: after the region it holds Dfun of the
  adjacency array.  The input array is not written.
-/
import proofs.«160742_j10926396801181_2_alg».proof.Proof.KI.Region0
import proofs.«160742_j10926396801181_2_alg».proof.Proof.Spec
import proofs.«160742_j10926396801181_2_alg».proof.Proof.Pay0
import Idealize.ShloMosaic.Lib.Pipeline.Value
import Idealize.ShloMosaic.Lib.ValueIdx

noncomputable section

namespace Cert.KernelIdeal.Val

open Cert.KernelIdeal Cert.KernelIdeal.Gen Cert.KernelIdeal.Frm
open Idealize.ShloMosaic Idealize.ShloMosaic.TcCoe Idealize.SL.Sem Idealize.ShloMosaic.ValueIdx
open Idealize.ShloMosaic.Pipeline (Dat)

/-- The zero offsets of a whole-block access, as a constant function. -/
theorem hz3 : (![0, 0, 0] : Fin 3 → Nat) = fun _ => 0 := funext fun a => by fin_cases a <;> rfl

/-- The scale of every node's degree, as an array of shape [16, 2048, 1]. -/
def Dfun (a : S16x2048x2048.Idx → EReal) : S16x2048x1.Idx → EReal :=
  fun j => Cert.Spec.dscale (Cert.Spec.deg a (j 0) (j 1))

/-- The printed index maps over the grid: both windows are at block (t / 2, t % 2, 0) at point t. -/
theorem idx_facts0 : ∀ t : Fin cfg0.N,
    win0_0.index t (0 : Fin 3) = t.val / 2 ∧ win0_0.index t (1 : Fin 3) = t.val % 2 ∧ win0_0.index t (2 : Fin 3) = 0
    ∧ win0_1.index t (0 : Fin 3) = t.val / 2 ∧ win0_1.index t (1 : Fin 3) = t.val % 2 ∧ win0_1.index t (2 : Fin 3) = 0 :=
  (by decide +kernel : ∀ t : Fin grid0.N, _)

/-- Every block of the output array is some point's. -/
theorem idx_onto0 : ∀ (q0 : Fin 16) (q1 : Fin 2), ∃ t : Fin cfg0.N, win0_1.index t = ![q0.val, q1.val, 0] :=
  (by decide +kernel : ∀ (q0 : Fin 16) (q1 : Fin 2), ∃ t : Fin grid0.N, win0_1.index t = ![q0.val, q1.val, 0])

/-- An index of an output block has first and last coordinate 0. -/
theorem blk_idx (y : S1x1024x1.Idx) : y = ix3 (0 : Fin 1) (y 1) (0 : Fin 1) := by
  funext d
  match d with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

/-- If row r of an input block is row n of batch b of the array a, the body's value at row r is the scale of that
    node's degree. -/
theorem pay_row (a : S16x2048x2048.Idx → EReal) (x0 : Vec Ideal S1x1024x2048 .f32) (r : Fin 1024) (b : Fin 16) (n : Fin 2048)
    (hx : ∀ m : Fin 2048, x0 (ix3 (0 : Fin 1) r m) = a (ix3 b n m)) :
    k0_pay1 (F := Ideal) x0 (ix3 (0 : Fin 1) r (0 : Fin 1)) = Cert.Spec.dscale (Cert.Spec.deg a b n) := by
  rw [Cert.KernelIdeal.Pay.pay0_apply]
  unfold Cert.Spec.deg
  exact congrArg Cert.Spec.dscale (Finset.sum_congr rfl fun m _ => hx m)

/-- An index of the array is in point t's block iff each coordinate is in the block's range on its axis. -/
theorem mem_blk0 (t : Fin cfg0.N) (i : S16x2048x1.Idx) :
    i ∈ ((cfg0.win 1).blk t).view.set ↔ ∀ a : Fin 3, win0_1.index t a * S1x1024x1.size a ≤ (i a).val ∧ (i a).val < win0_1.index t a * S1x1024x1.size a + S1x1024x1.size a := by
  show i ∈ ((View.whole main_v0).slice (win0_1.rect t)).set ↔ _
  rw [View.set_slice_whole, Rect.mem_set_unit]
  exact Iff.rfl

/-- Every index of the output array is in some point's block: row n of batch b in that of point 2 b + n / 1024. -/
theorem cover0 (i : S16x2048x1.Idx) :
    ∃ t : Fin cfg0.N, (cfg0.win 1).flush t = true ∧ i ∈ ((cfg0.win 1).blk t).view.set := by
  have hi0 : (i 0).val < 16 := (i 0).isLt
  have hi1 : (i 1).val < 2048 := (i 1).isLt
  have hi2 : (i 2).val < 1 := (i 2).isLt
  obtain ⟨t, ht⟩ := idx_onto0 ⟨(i 0).val, by omega⟩ ⟨(i 1).val / 1024, by omega⟩
  have q0 : win0_1.index t (0 : Fin 3) = (i 0).val := congrFun ht 0
  have q1 : win0_1.index t (1 : Fin 3) = (i 1).val / 1024 := congrFun ht 1
  have q2 : win0_1.index t (2 : Fin 3) = 0 := congrFun ht 2
  refine ⟨t, flush0_1 t, ?_⟩
  rw [mem_blk0]
  intro a
  match a with
  | ⟨0, _⟩ => show win0_1.index t (0 : Fin 3) * 1 ≤ (i 0).val ∧ (i 0).val < win0_1.index t (0 : Fin 3) * 1 + 1; omega
  | ⟨1, _⟩ => show win0_1.index t (1 : Fin 3) * 1024 ≤ (i 1).val ∧ (i 1).val < win0_1.index t (1 : Fin 3) * 1024 + 1024; omega
  | ⟨2, _⟩ => show win0_1.index t (2 : Fin 3) * 1 ≤ (i 2).val ∧ (i 2).val < win0_1.index t (2 : Fin 3) * 1 + 1; omega

variable (V : (c : Dev nD) → (b : Ref sig .tc) → Buf (Elt Ideal) ((c : Thread nD τ).loc b))

/-- What point t writes back is block t of Dfun of the adjacency array as the region finds it. -/
theorem flushed0_eq (c : Dev nD) (t : Fin cfg0.N) :
    (dat0 (F := Ideal) V c).flushed 1 t = ((cfg0.win 1).blk t).view.read (Elt Ideal) (Dfun (V c main_arg1)) := by
  show (cfg0.win 1).cut (grid0.coords t) ((dat0 (F := Ideal) V c).after 1 t) = _
  rw [after0_1]
  unfold out0_1
  rw [View.canon_unit_zero hz3]
  simp only [View.ld_unit_zero (S := S1x1024x2048) hz3]
  obtain ⟨e0, e1, e2, f0, f1, f2⟩ := idx_facts0 t
  funext y
  show k0_pay1 (F := Ideal) (iblk0 V c 0 t) y = Dfun (V c main_arg1) (((cfg0.win 1).blk t).view.emb y)
  obtain ⟨r, rfl⟩ : ∃ r : Fin 1024, y = ix3 (0 : Fin 1) r (0 : Fin 1) := ⟨y 1, blk_idx y⟩
  refine pay_row (V c main_arg1) (iblk0 V c 0 t) r _ _ fun m => ?_
  show V c main_arg1 (((cfg0.win 0).blk t).view.emb (ix3 (0 : Fin 1) r m)) = _
  refine congrArg (V c main_arg1) ?_
  funext a; apply Fin.ext
  match a with
  | ⟨0, _⟩ => show win0_0.index t (0 : Fin 3) * 1 + 1 * 0 = win0_1.index t (0 : Fin 3) * 1 + 1 * 0; omega
  | ⟨1, _⟩ => show win0_0.index t (1 : Fin 3) * 1024 + 1 * r.val = win0_1.index t (1 : Fin 3) * 1024 + 1 * r.val; omega
  | ⟨2, _⟩ => show win0_0.index t (2 : Fin 3) * 2048 + 1 * m.val = m.val; omega

/-- After the region the output array holds the scale of every node's degree. -/
theorem arr0_final (c : Dev nD) : (dat0 (F := Ideal) V c).arrAt 1 cfg0.N = Dfun (V c main_arg1) :=
  (dat0 (F := Ideal) V c).arrAt_eq_of_cover 1 (Dfun (V c main_arg1)) (fun t _ => flushed0_eq V c t) cover0

/-- The adjacency array is an input window's: the region leaves it as it found it. -/
theorem arr0_in (c : Dev nD) : (dat0 (F := Ideal) V c).arrAt 0 cfg0.N = V c main_arg1 :=
  ((dat0 (F := Ideal) V c).arrAt_in 0 rfl _).trans (A_eq0 V c 0)

end Cert.KernelIdeal.Val

end
-- ==== Proof.Pay1.lean ====
/-
  The first payload of the main kernel read at an index: the projected features with the column scale folded on.

  At the extended reals a change of float format is the identity, so entry (m, o) of the stored block is the matrix
  product of the feature block's row m with the weight's column o, times the column scale's entry m.
-/
import proofs.«160742_j10926396801181_2_alg».proof.Proof.PayLib
import proofs.«160742_j10926396801181_2_alg».proof.Proof.Spec

noncomputable section

namespace Cert.KernelIdeal.Pay

open Cert.KernelIdeal Cert.KernelIdeal.Gen Idealize.ShloMosaic Idealize.ShloMosaic.ValueIdx

variable [Cert.KernelIdeal.Facts]

/-- Entry (m, o) of the block the main kernel stores first. -/
theorem pay1_apply (v21 : Vec Ideal S1x2048x64 .f32) (v24 : Vec Ideal S64x64 .f32) (v27 : Vec Ideal S1x2048x1 .f32)
    (m : Fin 2048) (o : Fin 64) :
    k1_pay1 (F := Ideal) v21 v24 v27 (ix2 m o)
      = (∑ i : Fin 64, v21 (ix3 (0 : Fin 1) m i) * v24 (ix2 i o)) * v27 (ix3 (0 : Fin 1) m (0 : Fin 1)) := by
  unfold k1_pay1
  refine (shapeCast_ab_ab_apply _ _ m o).trans ?_
  rw [truncf_apply, mulf_apply]
  congr 1
  · refine (Cert.LibMatmul.matmul_zero_ix2 _ rfl rfl dotA_l0 dotA_l1 dotA_r0 dotA_r1 none _ _ m o).trans ?_
    refine Finset.sum_congr rfl fun i _ => ?_
    rw [truncf_apply, truncf_apply, shapeCast_1ab_ab_apply]
  · refine (broadcastTo_a1_ab_apply _ _ m o).trans ?_
    exact shapeCast_1ab_ab_apply _ _ m (0 : Fin 1)

end Cert.KernelIdeal.Pay

end
-- ==== Proof.Pay2.lean ====
/-
  The second payload of the main kernel read at an index: the layer's output block.

  At the extended reals a change of float format is the identity, so entry (0, r, o) of the stored block is the
  matrix product of the adjacency block's row r with the stored projected features' column o, times the row scale's
  entry r, plus the bias at o, clamped below at zero.
-/
import proofs.«160742_j10926396801181_2_alg».proof.Proof.PayLib
import proofs.«160742_j10926396801181_2_alg».proof.Proof.Spec

noncomputable section

namespace Cert.KernelIdeal.Pay

open Cert.KernelIdeal Cert.KernelIdeal.Gen Idealize.ShloMosaic Idealize.ShloMosaic.ValueIdx

variable [Cert.KernelIdeal.Facts]

/-- Entry (0, r, o) of the block the main kernel stores last. -/
theorem pay2_apply (v3 : Vec Ideal S2048x64 .bf16) (v4 : Vec Ideal S1x1024x2048 .f32) (v8 : Vec Ideal S1x1024x1 .f32)
    (v12 : Vec Ideal S64 .f32) (r : Fin 1024) (o : Fin 64) :
    k1_pay2 (F := Ideal) v3 v4 v8 v12 (ix3 (0 : Fin 1) r o)
      = max ((∑ m : Fin 2048, v4 (ix3 (0 : Fin 1) r m) * v3 (ix2 m o)) * v8 (ix3 (0 : Fin 1) r (0 : Fin 1))
          + v12 (ix1 o)) 0 := by
  unfold k1_pay2
  refine (shapeCast_ab_1ab_apply _ _ (0 : Fin 1) r o).trans ?_
  rw [maximumf_apply, addf_apply, mulf_apply, broadcast_apply]
  congr 1
  · congr 1
    · congr 1
      · refine (Cert.LibMatmul.matmul_zero_ix2 (φ₁ := .bf16) (φ₂ := .bf16) _ rfl rfl dotB_l0 dotB_l1 dotB_r0 dotB_r1 none _ v3 r o).trans ?_
        refine Finset.sum_congr rfl fun m _ => ?_
        rw [truncf_apply, shapeCast_1ab_ab_apply]
      · refine (broadcastTo_a1_ab_apply _ _ r o).trans ?_
        exact shapeCast_1ab_ab_apply _ _ r (0 : Fin 1)
    · refine (broadcastTo_1b_ab_apply _ _ r o).trans ?_
      exact shapeCast_a_1a_apply _ _ (0 : Fin 1) o
  · exact Ideal.ofBits_zero_f32

end Cert.KernelIdeal.Pay

end
-- ==== Proof.Payloads.lean ====
/-
  The kernel's three payloads read at an index at the extended reals: the degree kernel's scale block (Pay0.lean),
  and the main kernel's scaled projected features (Pay1.lean) and output block (Pay2.lean).
-/
import proofs.«160742_j10926396801181_2_alg».proof.Proof.Pay0
import proofs.«160742_j10926396801181_2_alg».proof.Proof.Pay1
import proofs.«160742_j10926396801181_2_alg».proof.Proof.Pay2
-- ==== Proof.KI.Value1.lean ====
/-
  What the main kernel's region leaves in its output array, as one function of the arrays the region finds.

  The grid has 16 x 2 points; point t = 2 b + q works on batch b and on the rows 1024 q ... 1024 q + 1023 of that
  batch.  Its blocks are: those rows of the adjacency array (all 2048 columns), the batch's whole feature block, the
  whole weight matrix and bias, the batch's whole column of scales, those rows of the scales, and those rows of the
  output.  The body stores at (0, r, o) of the output block
      max ((Σ_m adjblk (0, r, m) · ((Σ_i xblk (0, m, i) · W (i, o)) · dcol (0, m, 0))) · drow (0, r, 0) + bias o) 0,
  which, when the scale array holds the scale of every node's degree, is the layer's output at (b, 1024 q + r, o).
  So each point writes back the block of the layer's output that its rectangle names, and the 32 blocks cover the
  array: after the region it holds the layer's output.
-/
import proofs.«160742_j10926396801181_2_alg».proof.Proof.KI.Region1
import proofs.«160742_j10926396801181_2_alg».proof.Proof.Payloads
import proofs.«160742_j10926396801181_2_alg».proof.Proof.Spec
import Idealize.ShloMosaic.Lib.Pipeline.Value
import Idealize.ShloMosaic.Lib.ValueIdx

noncomputable section

namespace Cert.KernelIdeal.Val

open Cert.KernelIdeal Cert.KernelIdeal.Gen Cert.KernelIdeal.Frm Cert.KernelIdeal.Pay
open Idealize.ShloMosaic Idealize.ShloMosaic.TcCoe Idealize.SL.Sem Idealize.ShloMosaic.ValueIdx
open Idealize.ShloMosaic.Pipeline (Dat)

namespace B2

/-- The main kernel's output block at one entry, from its six input blocks: when the blocks are the arguments'
    parts for batch b and the rows n r, and the two scale blocks are the scales of the degrees, entry (0, r, o) is the
    layer's output at (b, n r, o). -/
theorem point_out (x : Cert.Spec.TX.Idx → EReal) (adj : Cert.Spec.TA.Idx → EReal) (W : Cert.Spec.TW.Idx → EReal)
    (bias : Cert.Spec.TB.Idx → EReal) (b : Fin 16) (n : Fin 1024 → Fin 2048)
    (xA : Vec Ideal S1x1024x2048 .f32) (xX : Vec Ideal S1x2048x64 .f32) (xW : Vec Ideal S64x64 .f32)
    (xB : Vec Ideal S64 .f32) (xD : Vec Ideal S1x2048x1 .f32) (xR : Vec Ideal S1x1024x1 .f32)
    (hA : ∀ r m, xA (ix3 (0 : Fin 1) r m) = adj (ix3 b (n r) m))
    (hX : ∀ m i, xX (ix3 (0 : Fin 1) m i) = x (ix3 b m i))
    (hW : ∀ i o, xW (ix2 i o) = W (ix2 i o))
    (hB : ∀ o, xB (ix1 o) = bias (ix1 o))
    (hDc : ∀ m, xD (ix3 (0 : Fin 1) m (0 : Fin 1)) = Cert.Spec.dscale (Cert.Spec.deg adj b m))
    (hR : ∀ r, xR (ix3 (0 : Fin 1) r (0 : Fin 1)) = Cert.Spec.dscale (Cert.Spec.deg adj b (n r)))
    (r : Fin 1024) (o : Fin 64) :
    k1_pay2 (F := Ideal) (k1_pay1 (F := Ideal) xX xW xD) xA xR xB (ix3 (0 : Fin 1) r o)
      = Cert.Spec.out x adj W bias b (n r) o := by
  rw [pay2_apply]
  unfold Cert.Spec.out Cert.Spec.sproj Cert.Spec.proj
  have hs : (∑ m : Fin 2048, xA (ix3 (0 : Fin 1) r m) * k1_pay1 (F := Ideal) xX xW xD (ix2 m o))
      = ∑ m : Fin 2048, adj (ix3 b (n r) m)
          * ((∑ i : Fin 64, x (ix3 b m i) * W (ix2 i o)) * Cert.Spec.dscale (Cert.Spec.deg adj b m)) :=
    Finset.sum_congr rfl fun m _ => by
      rw [pay1_apply, hA, hDc]
      simp only [hX, hW]
  rw [hs, hR, hB]

/-- The main kernel's block indices, decided over its 32 grid points: point t works on batch t / 2 and row tile
    t % 2; the features', the column scale's, the weights' and the bias' windows do not move with the row tile. -/
theorem idx_facts1 : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 2) = 0 ∧ win1_2.index t (1 : Fin 2) = 0
    ∧ win1_3.index t (0 : Fin 1) = 0
    ∧ win1_4.index t (0 : Fin 3) = t.val / 2 ∧ win1_4.index t (1 : Fin 3) = 0 ∧ win1_4.index t (2 : Fin 3) = 0
    ∧ win1_5.index t (0 : Fin 3) = t.val / 2 ∧ win1_5.index t (1 : Fin 3) = t.val % 2 ∧ win1_5.index t (2 : Fin 3) = 0
    ∧ win1_6.index t (0 : Fin 3) = t.val / 2 ∧ win1_6.index t (1 : Fin 3) = t.val % 2 ∧ win1_6.index t (2 : Fin 3) = 0 :=
  (by decide +kernel : ∀ t : Fin grid1.N, _)

theorem zoff3 : (![0, 0, 0] : Fin 3 → Nat) = fun _ => 0 := funext fun a => by fin_cases a <;> rfl
theorem zoff2 : (![0, 0] : Fin 2 → Nat) = fun _ => 0 := funext fun a => by fin_cases a <;> rfl
theorem zoff1 : (![0] : Fin 1 → Nat) = fun _ => 0 := funext fun a => by fin_cases a <;> rfl

/-- Every block of the output array is some point's. -/
theorem idx_onto1 : ∀ (q0 : Fin 16) (q1 : Fin 2), ∃ t : Fin cfg1.N, win1_6.index t = ![q0.val, q1.val, 0] :=
  (by decide +kernel : ∀ (q0 : Fin 16) (q1 : Fin 2), ∃ t : Fin grid1.N, win1_6.index t = ![q0.val, q1.val, 0])

/-- An index of an output block has first coordinate 0. -/
theorem blk_idx1 (y : S1x1024x64.Idx) : y = ix3 (0 : Fin 1) (y 1) (y 2) := by
  funext d
  match d with
  | ⟨0, _⟩ => exact Fin.ext (by have h : (y 0).val < 1 := (y 0).isLt; show (y 0).val = 0; omega)
  | ⟨1, _⟩ => rfl
  | ⟨2, _⟩ => rfl

/-- The grid has 32 points. -/
theorem lt32 (t : Fin cfg1.N) : t.val < 32 := lt_of_lt_of_eq t.isLt N_1

/-- The batch point t works on. -/
def batchOf (t : Fin cfg1.N) : Fin 16 := ⟨t.val / 2, by have := lt32 t; omega⟩

/-- The row of the batch that row r of point t's row tile is. -/
def rowOf (t : Fin cfg1.N) (r : Fin 1024) : Fin 2048 := ⟨1024 * (t.val % 2) + r.val, by have := r.isLt; omega⟩

/-- An index of the array is in point t's block iff each coordinate is in the block's range on its axis. -/
theorem mem_blk1 (t : Fin cfg1.N) (i : S16x2048x64.Idx) :
    i ∈ ((cfg1.win 6).blk t).view.set ↔ ∀ a : Fin 3, win1_6.index t a * S1x1024x64.size a ≤ (i a).val ∧ (i a).val < win1_6.index t a * S1x1024x64.size a + S1x1024x64.size a := by
  show i ∈ ((View.whole main_v1).slice (win1_6.rect t)).set ↔ _
  rw [View.set_slice_whole, Rect.mem_set_unit]
  exact Iff.rfl

/-- Every index of the output array is in some point's block: row n of batch b in that of point 2 b + n / 1024. -/
theorem cover1 (i : S16x2048x64.Idx) :
    ∃ t : Fin cfg1.N, (cfg1.win 6).flush t = true ∧ i ∈ ((cfg1.win 6).blk t).view.set := by
  have hi0 : (i 0).val < 16 := (i 0).isLt
  have hi1 : (i 1).val < 2048 := (i 1).isLt
  have hi2 : (i 2).val < 64 := (i 2).isLt
  obtain ⟨t, ht⟩ := idx_onto1 ⟨(i 0).val, by omega⟩ ⟨(i 1).val / 1024, by omega⟩
  have q0 : win1_6.index t (0 : Fin 3) = (i 0).val := congrFun ht 0
  have q1 : win1_6.index t (1 : Fin 3) = (i 1).val / 1024 := congrFun ht 1
  have q2 : win1_6.index t (2 : Fin 3) = 0 := congrFun ht 2
  refine ⟨t, flush1_6 t, ?_⟩
  rw [mem_blk1]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 1024 ≤ (i 1).val ∧ (i 1).val < win1_6.index t (1 : Fin 3) * 1024 + 1024; omega
  | ⟨2, _⟩ => show win1_6.index t (2 : Fin 3) * 64 ≤ (i 2).val ∧ (i 2).val < win1_6.index t (2 : Fin 3) * 64 + 64; omega

end B2

open B2

variable (V : (c : Dev nD) → (b : Ref sig .tc) → Buf (Elt Ideal) ((c : Thread nD τ).loc b))

/-- What point t writes back is block t of the layer's output on the arrays as the region finds them, when the scale
    array holds the scale of every node's degree. -/
theorem flushed1_eq (c : Dev nD)
    (hD : ∀ (b : Fin 16) (n : Fin 2048), V c main_v0 (ix3 b n (0 : Fin 1)) = Cert.Spec.dscale (Cert.Spec.deg (V c main_arg1) b n))
    (t : Fin cfg1.N) :
    (dat1 (F := Ideal) V c).flushed 6 t = ((cfg1.win 6).blk t).view.read (Elt Ideal)
      (Cert.Spec.G (V c main_arg0) (V c main_arg1) (V c main_arg2) (V c main_arg3)) := by
  show (cfg1.win 6).cut (grid1.coords t) ((dat1 (F := Ideal) V c).after 6 t) = _
  rw [after1_6]
  unfold out1_6 scr1 supp1
  rw [View.canon_unit_zero zoff3]
  simp only [View.ld_unit_zero (S := S2048x64) zoff2, View.ld_unit_zero (S := S1x1024x2048) zoff3,
    View.ld_unit_zero (S := S1x1024x1) zoff3, View.ld_unit_zero (S := S64) zoff1, View.ld_unit_zero (S := S1x2048x64) zoff3,
    View.ld_unit_zero (S := S64x64) zoff2, View.ld_unit_zero (S := S1x2048x1) zoff3]
  rw [View.canon_unit_zero zoff2]
  obtain ⟨e00, e01, e02, e10, e11, e12, e20, e21, e30, e40, e41, e42, e50, e51, e52, e60, e61, e62⟩ := idx_facts1 t
  funext y
  show k1_pay2 (F := Ideal) (k1_pay1 (F := Ideal) (iblk1 V c 1 t) (iblk1 V c 2 t) (iblk1 V c 4 t)) (iblk1 V c 0 t)
      (iblk1 V c 5 t) (iblk1 V c 3 t) y
    = Cert.Spec.G (V c main_arg0) (V c main_arg1) (V c main_arg2) (V c main_arg3) (((cfg1.win 6).blk t).view.emb y)
  obtain ⟨r, o, rfl⟩ : ∃ (r : Fin 1024) (o : Fin 64), y = ix3 (0 : Fin 1) r o := ⟨y 1, y 2, blk_idx1 y⟩
  have h6 : ((cfg1.win 6).blk t).view.emb (ix3 (0 : Fin 1) r o) = ix3 (batchOf t) (rowOf t r) o := by
    funext a; apply Fin.ext
    match a with
    | ⟨0, _⟩ => show win1_6.index t (0 : Fin 3) * 1 + 1 * 0 = t.val / 2; omega
    | ⟨1, _⟩ => show win1_6.index t (1 : Fin 3) * 1024 + 1 * r.val = 1024 * (t.val % 2) + r.val; omega
    | ⟨2, _⟩ => show win1_6.index t (2 : Fin 3) * 64 + 1 * o.val = o.val; omega
  rw [h6, Cert.Spec.G_ix3]
  refine point_out _ _ _ _ (batchOf t) (rowOf t) _ _ _ _ _ _ (fun r' m => ?_) (fun m i => ?_) (fun i o' => ?_) (fun o' => ?_)
    (fun m => ?_) (fun r' => ?_) r o
  · show V c main_arg1 (((cfg1.win 0).blk t).view.emb (ix3 (0 : Fin 1) r' m)) = _
    refine congrArg (V c main_arg1) ?_
    funext a; apply Fin.ext
    match a with
    | ⟨0, _⟩ => show win1_0.index t (0 : Fin 3) * 1 + 1 * 0 = t.val / 2; omega
    | ⟨1, _⟩ => show win1_0.index t (1 : Fin 3) * 1024 + 1 * r'.val = 1024 * (t.val % 2) + r'.val; omega
    | ⟨2, _⟩ => show win1_0.index t (2 : Fin 3) * 2048 + 1 * m.val = m.val; omega
  · show V c main_arg0 (((cfg1.win 1).blk t).view.emb (ix3 (0 : Fin 1) m i)) = _
    refine congrArg (V c main_arg0) ?_
    funext a; apply Fin.ext
    match a with
    | ⟨0, _⟩ => show win1_1.index t (0 : Fin 3) * 1 + 1 * 0 = t.val / 2; omega
    | ⟨1, _⟩ => show win1_1.index t (1 : Fin 3) * 2048 + 1 * m.val = m.val; omega
    | ⟨2, _⟩ => show win1_1.index t (2 : Fin 3) * 64 + 1 * i.val = i.val; omega
  · show V c main_arg2 (((cfg1.win 2).blk t).view.emb (ix2 i o')) = _
    refine congrArg (V c main_arg2) ?_
    funext a; apply Fin.ext
    match a with
    | ⟨0, _⟩ => show win1_2.index t (0 : Fin 2) * 64 + 1 * i.val = i.val; omega
    | ⟨1, _⟩ => show win1_2.index t (1 : Fin 2) * 64 + 1 * o'.val = o'.val; omega
  · show V c main_arg3 (((cfg1.win 3).blk t).view.emb (ix1 o')) = _
    refine congrArg (V c main_arg3) ?_
    funext a; apply Fin.ext
    match a with
    | ⟨0, _⟩ => show win1_3.index t (0 : Fin 1) * 64 + 1 * o'.val = o'.val; omega
  · rw [← hD (batchOf t) m]
    show V c main_v0 (((cfg1.win 4).blk t).view.emb (ix3 (0 : Fin 1) m (0 : Fin 1))) = _
    refine congrArg (V c main_v0) ?_
    funext a; apply Fin.ext
    match a with
    | ⟨0, _⟩ => show win1_4.index t (0 : Fin 3) * 1 + 1 * 0 = t.val / 2; omega
    | ⟨1, _⟩ => show win1_4.index t (1 : Fin 3) * 2048 + 1 * m.val = m.val; omega
    | ⟨2, _⟩ => show win1_4.index t (2 : Fin 3) * 1 + 1 * 0 = 0; omega
  · rw [← hD (batchOf t) (rowOf t r')]
    show V c main_v0 (((cfg1.win 5).blk t).view.emb (ix3 (0 : Fin 1) r' (0 : Fin 1))) = _
    refine congrArg (V c main_v0) ?_
    funext a; apply Fin.ext
    match a with
    | ⟨0, _⟩ => show win1_5.index t (0 : Fin 3) * 1 + 1 * 0 = t.val / 2; omega
    | ⟨1, _⟩ => show win1_5.index t (1 : Fin 3) * 1024 + 1 * r'.val = 1024 * (t.val % 2) + r'.val; omega
    | ⟨2, _⟩ => show win1_5.index t (2 : Fin 3) * 1 + 1 * 0 = 0; omega

/-- After the region the output array holds the layer's output on the arrays as the region finds them, when the
    scale array holds the scale of every node's degree. -/
theorem arr1_final (c : Dev nD)
    (hD : ∀ (b : Fin 16) (n : Fin 2048), V c main_v0 (ix3 b n (0 : Fin 1)) = Cert.Spec.dscale (Cert.Spec.deg (V c main_arg1) b n)) :
    (Cert.KernelIdeal.Frm.dat1 (F := Ideal) V c).arrAt 6 cfg1.N
      = Cert.Spec.G (V c main_arg0) (V c main_arg1) (V c main_arg2) (V c main_arg3) :=
  (dat1 (F := Ideal) V c).arrAt_eq_of_cover 6 (Cert.Spec.G (V c main_arg0) (V c main_arg1) (V c main_arg2) (V c main_arg3))
    (fun t _ => flushed1_eq V c hD t) B2.cover1

end Cert.KernelIdeal.Val

end
-- ==== Proof.KI.Final.lean ====
/-
  The value of the idealized kernel's result array, from the run of its two pipelines.

  After the first pipeline the scale array holds, at (b, n, 0), the scale d(deg b n) of the degree of node n; the
  second pipeline finds it there, beside the four argument arrays as launched, and its write-backs leave in the result
  array the layer's output G of the four arguments.
-/
import proofs.«160742_j10926396801181_2_alg».proof.Proof.KI.Run
import proofs.«160742_j10926396801181_2_alg».proof.Proof.KI.Value0
import proofs.«160742_j10926396801181_2_alg».proof.Proof.KI.Value1

noncomputable section

namespace Cert.KernelIdeal.Val

open Cert.KernelIdeal Cert.KernelIdeal.Gen Cert.KernelIdeal.Frm
open Idealize.ShloMosaic Idealize.ShloMosaic.TcCoe Idealize.ShloMosaic.ValueIdx Idealize.SL.Sem

variable (m : (ℓ : Loc nD τ sig) → Buf (Elt Ideal) ℓ)

/-- A buffer neither pipeline writes reaches the second pipeline as launched. -/
theorem VV1_arg (c : Dev nD) (b : Ref sig .tc) (hb : ∀ w, Pipeline.arrRef spec0 w = b → w = 0) :
    VV1 m c b = m ((c : Thread nD τ).loc b) := by
  show W1 m c (Proc.devRef .tc b) = _
  by_cases hw : ∃ w, Pipeline.arrRef spec0 w = b
  · obtain ⟨w, rfl⟩ := hw
    obtain rfl := hb w rfl
    exact (W1_arr m c 0).trans (((dat0 (VV0 m) c).arrAt_in 0 rfl _).trans (A_eq0 (VV0 m) c 0))
  · exact W1_of_ne m c b fun w e => hw ⟨w, e⟩

/-- The scale array as the second pipeline finds it: the scale of each node's degree. -/
theorem VV1_scale (c : Dev nD) (b : Fin 16) (n : Fin 2048) :
    VV1 m c main_v0 (ix3 b n (0 : Fin 1)) = Cert.Spec.dscale (Cert.Spec.deg (VV1 m c main_arg1) b n) := by
  have e0 : VV1 m c main_v0 = Dfun (VV0 m c main_arg1) := (W1_arr m c 1).trans (arr0_final (VV0 m) c)
  have e1 : VV1 m c main_arg1 = VV0 m c main_arg1 := VV1_arg m c main_arg1 (by decide)
  rw [e0, e1]
  rfl

/-- The result array after the run is the layer's output of the four arguments as launched. -/
theorem result_eq (c : Dev nD) :
    W2 m c (Proc.devRef .tc main_v1)
      = Cert.Spec.G (m ((c : Thread nD τ).loc main_arg0)) (m ((c : Thread nD τ).loc main_arg1))
          (m ((c : Thread nD τ).loc main_arg2)) (m ((c : Thread nD τ).loc main_arg3)) := by
  have e := (W2_v1 m c).trans (arr1_final (VV1 m) c (VV1_scale m c))
  rw [VV1_arg m c main_arg0 (by decide), VV1_arg m c main_arg1 (by decide), VV1_arg m c main_arg2 (by decide),
    VV1_arg m c main_arg3 (by decide)] at e
  exact e

end Cert.KernelIdeal.Val

end
-- ==== Proof.RefValueScalar.lean ====
/-
  The scale of a degree as the reference program computes it, and the rearrangement of the scaled contraction.

  The reference raises the degree s to the power -1/2 and replaces an infinite result by zero.  On a real degree
  the power is the real power function's value: (√s)⁻¹ for s > 0, and 0 both at s = 0 and for s < 0 (there the
  real power is exp(-(log|s|)/2) · cos(-π/2) = 0).  A real number is never infinite, so the replacement does
  nothing, and the reference's scale is "inverse square root where the degree is positive, zero elsewhere".

  The second part is the algebra over real entries: with d the scales, a the adjacency row and p the projected
  features,  Σ_m ((d_n · a_nm) · d_m) · p_mo = (Σ_m a_nm · (p_mo · d_m)) · d_n.
-/
import Idealize.ShloMosaic.PureOps.Ideal
import Idealize.ShloMosaic.PureOps.Ideal.Laws
import Idealize.ShloMosaic.Lib.ValueIdx
import proofs.«160742_j10926396801181_2_alg».proof.Proof.Spec

noncomputable section

namespace Cert.RefG

open Idealize.ShloMosaic Idealize.ShloMosaic.ValueIdx

/-- The word 0xBF000000 is the real number -1/2. -/
theorem ofBits_neg_half : Ideal.ofBits .f32 0xBF000000#32 = ((-(1 / 2) : ℝ) : EReal) := by
  simp [Ideal.ofBits, Ideal.ieee]
  rw [← EReal.coe_mul]
  exact congrArg _ (by norm_num)

/-- The word 0x7F800000 is +∞. -/
theorem ofBits_top : Ideal.ofBits .f32 0x7F800000#32 = ⊤ := by simp [Ideal.ofBits, Ideal.ieee]

/-- The real power s^(-1/2): the inverse square root of a positive s, and zero otherwise. -/
theorem rpow_neg_half (r : ℝ) : Real.rpow r (-(1 / 2)) = if 0 < r then (Real.sqrt r)⁻¹ else 0 := by
  show r ^ (-(1 / 2) : ℝ) = _
  rcases lt_trichotomy r 0 with h | h | h
  · rw [if_neg (not_lt.mpr h.le), Real.rpow_def_of_neg h]
    have : (-(1 / 2) : ℝ) * Real.pi = -(Real.pi / 2) := by ring
    rw [this, Real.cos_neg, Real.cos_pi_div_two, mul_zero]
  · subst h
    rw [if_neg (lt_irrefl _), Real.zero_rpow (by norm_num)]
  · rw [if_pos h, Real.rpow_neg h.le, Real.sqrt_eq_rpow]

/-- The reference's scale of a degree s: s^(-1/2), with an infinite value replaced by zero. -/
def refScale (s : EReal) : EReal :=
  Scalar.select
    (Ideal.cmp .oeq (max (Ideal.pow s (Ideal.ofBits .f32 0xBF000000#32)) (-(Ideal.pow s (Ideal.ofBits .f32 0xBF000000#32))))
      (Ideal.ofBits .f32 0x7F800000#32))
    (Ideal.ofBits .f32 0x00000000#32) (Ideal.pow s (Ideal.ofBits .f32 0xBF000000#32))

/-- On a real degree the reference's scale is the specification's. -/
theorem dscale_eq (r : ℝ) : refScale (r : EReal) = Cert.Spec.dscale (r : EReal) := by
  unfold refScale Cert.Spec.dscale
  rw [ofBits_neg_half, ofBits_top, Ideal.pow_coe_coe, rpow_neg_half]
  have hne : ∀ a : ℝ, Ideal.cmp .oeq (max (a : EReal) (-(a : EReal))) ⊤ = 0#1 := by
    intro a
    have : max (a : EReal) (-(a : EReal)) ≠ ⊤ := by
      rw [← EReal.coe_neg]
      rcases max_choice (a : EReal) ((-a : ℝ) : EReal) with h | h <;> rw [h] <;> exact EReal.coe_ne_top _
    simp [Ideal.cmp, this]
  rw [hne, select_zero]
  by_cases h : 0 < r
  · have h1 : Ideal.cmp .ogt (r : EReal) 0 = 1#1 := by
      simp [Ideal.cmp, h]
    rw [h1, select_one, if_pos h, Ideal.rsqrt_coe, if_neg (not_lt.mpr h.le), if_neg h.ne']
  · have h0 : Ideal.cmp .ogt (r : EReal) 0 = 0#1 := by
      simp [Ideal.cmp, h]
    rw [h0, select_zero, if_neg h, EReal.coe_zero]

/-- The specification's scale of a real degree, as a real number. -/
def dsr (r : ℝ) : ℝ := if 0 < r then (Real.sqrt r)⁻¹ else 0

/-- The scale of a real degree is that real number. -/
theorem dscale_coe (r : ℝ) : Cert.Spec.dscale (r : EReal) = ((dsr r : ℝ) : EReal) := by
  unfold Cert.Spec.dscale dsr
  by_cases h : 0 < r
  · have h1 : Ideal.cmp .ogt (r : EReal) 0 = 1#1 := by
      simp [Ideal.cmp, h]
    rw [h1, select_one, if_pos h, Ideal.rsqrt_coe, if_neg (not_lt.mpr h.le), if_neg h.ne']
  · have h0 : Ideal.cmp .ogt (r : EReal) 0 = 0#1 := by
      simp [Ideal.cmp, h]
    rw [h0, select_zero, if_neg h, EReal.coe_zero]

/-- A finite sum of real numbers, taken in the extended reals, is the real sum. -/
theorem coe_sum {ι : Type*} (s : Finset ι) (f : ι → ℝ) :
    ∑ i ∈ s, ((f i : ℝ) : EReal) = ((∑ i ∈ s, f i : ℝ) : EReal) := by
  classical
  refine Finset.induction_on s (by simp) ?_
  intro a t ha ih
  rw [Finset.sum_insert ha, Finset.sum_insert ha, ih, EReal.coe_add]

/-- The scaled contraction over real entries, with the row scale taken out of the sum and the column scale
    moved onto the projected features. -/
theorem rearrange {N : ℕ} (a p d : Fin N → ℝ) (dn : ℝ) :
    ∑ m : Fin N, (((dn : EReal) * (a m : EReal)) * (d m : EReal)) * (p m : EReal)
      = (∑ m : Fin N, (a m : EReal) * ((p m : EReal) * (d m : EReal))) * (dn : EReal) := by
  simp only [← EReal.coe_mul]
  rw [coe_sum, coe_sum, ← EReal.coe_mul]
  refine congrArg _ ?_
  rw [Finset.sum_mul]
  exact Finset.sum_congr rfl fun m _ => by ring

end Cert.RefG

end
-- ==== Proof.RefValue.lean ====
/-
  The reference program's result is the graph convolution of the specification.

  Read one element at a time, the reference computes at (b, n, o)
      max ( Σ_m ((d_n · adj b n m) · d_m) · (Σ_i x b m i · W i o) + bias o , 0 ),
  where d_n is the reference's scale of the degree Σ_m adj b n m.  With real entries the degrees are real, the
  reference's scale of a real degree is the specification's, and the sum rearranges into
      (Σ_m adj b n m · ((Σ_i x b m i · W i o) · d_m)) · d_n.
-/
import proofs.«160742_j10926396801181_2_alg».proof.Proof.Gen.ReferenceIdeal.Read
import proofs.«160742_j10926396801181_2_alg».proof.Proof.Spec
import proofs.«160742_j10926396801181_2_alg».proof.Proof.RefValueScalar

noncomputable section

namespace Cert.RefG

open Idealize.ShloMosaic Idealize.ShloMosaic.ValueIdx Cert.ReferenceIdeal Cert.ReferenceIdeal.Read

/-- The reference's scale array at (b, n) is its scalar scale of the degree of node n. -/
theorem v4_ix2 (adj : (⟨S16x2048x2048, .f32⟩ : BufTy).Contents (Elt Ideal)) (b : Fin 16) (n : Fin 2048) :
    val_main_v4 (F := Ideal) adj (ix2 b n) = refScale (Cert.Spec.deg adj b n) := by
  have e0 : ∀ k : Fin 2048, idx_main_v0 (ix2 b n) k = ix3 b n k := fun k =>
    funext fun a => Fin.ext (by match a with | ⟨0, _⟩ => rfl | ⟨1, _⟩ => rfl | ⟨2, _⟩ => rfl)
  rw [val_main_v4_apply, val_main_v3_apply, val_main_call0_v0_apply, val_main_call0_v1_apply,
    val_main_call0_cst_apply, val_main_call1_v1_apply, val_main_call1_v0_apply, val_main_cst_1_apply,
    val_main_v2_apply, val_main_v1_apply, val_main_cst_0_apply, val_main_v0_apply, val_main_cst_apply]
  unfold refScale Cert.Spec.deg
  simp only [e0, Ideal.ofBits_def, Ideal.hostPowf_def, Ideal.hostAbsf_def, Ideal.absf_def, Ideal.cmpf_def,
    Ideal.ofBits_zero_f32, zero_add]

/-- With real adjacency entries that scale is the real scale of the real degree. -/
theorem v4_real (ar : S16x2048x2048.Idx → ℝ) (b : Fin 16) (n : Fin 2048) :
    val_main_v4 (F := Ideal) (fun i => ((ar i : ℝ) : EReal)) (ix2 b n)
      = ((dsr (∑ m : Fin 2048, ar (ix3 b n m)) : ℝ) : EReal) := by
  rw [v4_ix2]
  unfold Cert.Spec.deg
  rw [coe_sum, dscale_eq, dscale_coe]

/-- The normalised adjacency at (b, n, m): row scale times entry times column scale. -/
theorem v10_ix3 (adj : (⟨S16x2048x2048, .f32⟩ : BufTy).Contents (Elt Ideal)) (b : Fin 16) (n m : Fin 2048) :
    val_main_v10 (F := Ideal) adj (ix3 b n m)
      = (val_main_v4 (F := Ideal) adj (ix2 b n) * adj (ix3 b n m)) * val_main_v4 (F := Ideal) adj (ix2 b m) := by
  have e1 : idx_main_v5 (idx_main_v6 (ix3 b n m)) = ix2 b n :=
    funext fun a => Fin.ext (by match a with | ⟨0, _⟩ => rfl | ⟨1, _⟩ => rfl)
  have e2 : idx_main_v8 (idx_main_v9 (ix3 b n m)) = ix2 b m :=
    funext fun a => Fin.ext (by match a with | ⟨0, _⟩ => rfl | ⟨1, _⟩ => rfl)
  rw [val_main_v10_apply, val_main_v7_apply, val_main_v6_apply, val_main_v5_apply, val_main_v9_apply,
    val_main_v8_apply, e1, e2]
  rfl

/-- The projected features at (b, m, o). -/
theorem v11_ix3 (x : (⟨S16x2048x64, .f32⟩ : BufTy).Contents (Elt Ideal))
    (W : (⟨S64x64, .f32⟩ : BufTy).Contents (Elt Ideal)) (b : Fin 16) (m : Fin 2048) (o : Fin 64) :
    val_main_v11 (F := Ideal) x W (ix3 b m o) = Cert.Spec.proj x W b m o := by
  rw [val_main_v11_apply]
  unfold Cert.Spec.proj
  refine Finset.sum_congr rfl fun k _ => ?_
  have el : lidx_main_v11 (ix3 b m o) k = ix3 b m k :=
    funext fun a => Fin.ext (by match a with | ⟨0, _⟩ => rfl | ⟨1, _⟩ => rfl | ⟨2, _⟩ => rfl)
  have er : ridx_main_v11 (ix3 b m o) k = ix2 k o :=
    funext fun a => Fin.ext (by match a with | ⟨0, _⟩ => rfl | ⟨1, _⟩ => rfl)
  rw [el, er]

/-- The contraction over the neighbours m at (b, n, o). -/
theorem v12_ix3 (x : (⟨S16x2048x64, .f32⟩ : BufTy).Contents (Elt Ideal))
    (adj : (⟨S16x2048x2048, .f32⟩ : BufTy).Contents (Elt Ideal))
    (W : (⟨S64x64, .f32⟩ : BufTy).Contents (Elt Ideal)) (b : Fin 16) (n : Fin 2048) (o : Fin 64) :
    val_main_v12 (F := Ideal) x adj W (ix3 b n o)
      = ∑ m : Fin 2048, val_main_v10 (F := Ideal) adj (ix3 b n m) * val_main_v11 (F := Ideal) x W (ix3 b m o) := by
  rw [val_main_v12_apply]
  refine Finset.sum_congr rfl fun k _ => ?_
  have el : lidx_main_v12 (ix3 b n o) k = ix3 b n k :=
    funext fun a => Fin.ext (by match a with | ⟨0, _⟩ => rfl | ⟨1, _⟩ => rfl | ⟨2, _⟩ => rfl)
  have er : ridx_main_v12 (ix3 b n o) k = ix3 b k o :=
    funext fun a => Fin.ext (by match a with | ⟨0, _⟩ => rfl | ⟨1, _⟩ => rfl | ⟨2, _⟩ => rfl)
  rw [el, er]

/-- The broadcast bias at (b, n, o) is the bias of channel o. -/
theorem v14_ix3 (bias : (⟨S64, .f32⟩ : BufTy).Contents (Elt Ideal)) (b : Fin 16) (n : Fin 2048) (o : Fin 64) :
    val_main_v14 (F := Ideal) bias (ix3 b n o) = bias (ix1 o) := by
  rw [val_main_v14_apply, val_main_v13_apply]
  exact congrArg bias (funext fun a => Fin.ext (by match a with | ⟨0, _⟩ => rfl))

/-- With real entries the reference's result is the specification's graph convolution. -/
theorem ref_eq (x : (⟨S16x2048x64, .f32⟩ : BufTy).Contents (Elt Ideal))
    (adj : (⟨S16x2048x2048, .f32⟩ : BufTy).Contents (Elt Ideal))
    (W : (⟨S64x64, .f32⟩ : BufTy).Contents (Elt Ideal))
    (bias : (⟨S64, .f32⟩ : BufTy).Contents (Elt Ideal))
    (hx : ∀ i, ∃ r : ℝ, x i = (r : EReal)) (hadj : ∀ i, ∃ r : ℝ, adj i = (r : EReal))
    (hW : ∀ i, ∃ r : ℝ, W i = (r : EReal)) (hb : ∀ i, ∃ r : ℝ, bias i = (r : EReal)) :
    val_main_v16 (F := Ideal) x adj W bias = Cert.Spec.G x adj W bias := by
  choose xr hxr using hx
  choose ar har using hadj
  choose wr hwr using hW
  choose br hbr using hb
  obtain rfl : x = fun i => ((xr i : ℝ) : EReal) := funext hxr
  obtain rfl : adj = fun i => ((ar i : ℝ) : EReal) := funext har
  obtain rfl : W = fun i => ((wr i : ℝ) : EReal) := funext hwr
  obtain rfl : bias = fun i => ((br i : ℝ) : EReal) := funext hbr
  funext i
  obtain ⟨b, n, o, rfl⟩ : ∃ (b : Fin 16) (n : Fin 2048) (o : Fin 64), i = ix3 b n o := ⟨i 0, i 1, i 2, eq_ix3 i⟩
  rw [Cert.Spec.G_ix3, val_main_v16_apply, val_main_v15_apply, val_main_call2_v0_apply, val_main_call2_cst_apply,
    v12_ix3, v14_ix3]
  have hp : ∀ m : Fin 2048, Cert.Spec.proj (fun i => ((xr i : ℝ) : EReal)) (fun i => ((wr i : ℝ) : EReal)) b m o
      = ((∑ k : Fin 64, xr (ix3 b m k) * wr (ix2 k o) : ℝ) : EReal) := by
    intro m
    unfold Cert.Spec.proj
    simp only [← EReal.coe_mul]
    rw [coe_sum]
  have hd : ∀ m : Fin 2048, Cert.Spec.dscale (Cert.Spec.deg (fun i => ((ar i : ℝ) : EReal)) b m)
      = ((dsr (∑ k : Fin 2048, ar (ix3 b m k)) : ℝ) : EReal) := by
    intro m
    unfold Cert.Spec.deg
    rw [coe_sum, dscale_coe]
  unfold Cert.Spec.out Cert.Spec.sproj
  simp only [v10_ix3, v11_ix3, v4_real, hp, hd, Ideal.ofBits_def, Ideal.ofBits_zero_f32, Ideal.maximumf_def, Ideal.addf_def]
  rw [rearrange (fun m => ar (ix3 b n m)) (fun m => ∑ k : Fin 64, xr (ix3 b m k) * wr (ix2 k o))
    (fun m => dsr (∑ k : Fin 2048, ar (ix3 b m k))) (dsr (∑ k : Fin 2048, ar (ix3 b n k)))]

end Cert.RefG

end
-- ==== Proof.Finite.lean ====
/-
  From the precondition to real entries.

  The precondition says, of each of the four argument arrays, that every entry's absolute value is below +∞
  (an "all" over the array of these comparisons, the four conjoined).  An extended real whose absolute value is
  below +∞ is neither +∞ nor -∞ (the absolute value of either is +∞), hence a real number.
-/
import proofs.«160742_j10926396801181_2_alg».proof.Defs
import Idealize.ShloMosaic.Lib.ReduceAll
import Idealize.ShloMosaic.Lib.ValueIdx
import Idealize.ShloMosaic.Lib.Pipeline.Value
import Idealize.ShloMosaic.PureOps.Ideal.Laws

noncomputable section

namespace Cert.Fin

open Idealize.ShloMosaic Idealize.ShloMosaic.ValueIdx Cert.Pre_finite_inputs

/-- The scalar shape has one index. -/
instance : Subsingleton S_.Idx := ⟨fun _ _ => funext fun d => d.elim0⟩

/-- An extended real whose absolute value is below +∞ is a real number. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- One entry of an array whose comparison "|v| < +∞" holds at that entry is a real number. -/
theorem real_of_lt {t : Shape} (bc : S_.BroadcastsInDim t (![] : Fin 0 → Fin t.rank)) (v : FVec Ideal t .f32) (i : t.Idx)
    (h : cmpf .olt (Host.absf v) (broadcastInDim t ![] bc (constant (F := Ideal) S_ .f32 0x7F800000#32)) i = 1#1) :
    ∃ r : ℝ, v i = (r : EReal) := by
  have hb : broadcastInDim t ![] bc (constant (F := Ideal) S_ .f32 0x7F800000#32) i = ⊤ := by
    rw [broadcastInDim_apply _ bc _ i (fun a => a.elim0) (fun a => a.elim0)]
    show Ideal.ofBits .f32 0x7F800000#32 = ⊤
    simp [Ideal.ofBits, Ideal.ieee]
  refine real_of_abs_lt_top (v i) ?_
  rw [← hb]
  exact h

/-- Under the precondition every entry of the four argument arrays is a real number. -/
theorem real_of_pre [Cert.Pre_finite_inputs.Facts]
    (a0 : (⟨Cert.KernelIdeal.S16x2048x64, .f32⟩ : BufTy).Contents (Elt Ideal))
    (a1 : (⟨Cert.KernelIdeal.S16x2048x2048, .f32⟩ : BufTy).Contents (Elt Ideal))
    (a2 : (⟨Cert.KernelIdeal.S64x64, .f32⟩ : BufTy).Contents (Elt Ideal))
    (a3 : (⟨Cert.KernelIdeal.S64, .f32⟩ : BufTy).Contents (Elt Ideal))
    (h : Cert.Pre_finite_inputs.fn (F := Ideal) a0 a1 a2 a3 = (fun _ => 1#1)) :
    (∀ i, ∃ r : ℝ, a0 i = (r : EReal)) ∧ (∀ i, ∃ r : ℝ, a1 i = (r : EReal))
      ∧ (∀ i, ∃ r : ℝ, a2 i = (r : EReal)) ∧ (∀ i, ∃ r : ℝ, a3 i = (r : EReal)) := by
  have h0 := congrFun h ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_lt _ a0 i (Host.reduce_andi_all _ _ _ _ _ h0' i),
    fun i => real_of_lt _ a1 i (Host.reduce_andi_all _ _ _ _ _ h1 i),
    fun i => real_of_lt _ a2 i (Host.reduce_andi_all _ _ _ _ _ h2 i),
    fun i => real_of_lt _ a3 i (Host.reduce_andi_all _ _ _ _ _ h3 i)⟩

end Cert.Fin

end
-- ==== Proof.lean ====
/-
  A graph-convolution layer on TPU against its jnp reference, at the extended reals.

  The kernel is two pallas_calls. The first streams the adjacency matrix in row tiles, sums each row to the node's
  degree and stores the scale d = degree^(-1/2) where the degree is positive, 0 elsewhere. The second streams the
  adjacency again: at the first row tile of a batch it projects the features, folds the column scale on and keeps the
  product in a scratch buffer; at every row tile it multiplies the tile into that product, scales the rows, adds the
  bias and clamps at 0. The reference normalizes the adjacency on both sides first, d_n · adj_nm · d_m, and then
  contracts it with the projected features. For finite inputs every number met is a real, the row scale moves across
  the sum over m, and the two are one function G of the four arguments (Proof/Spec.lean); the reference's scale,
  a power with exponent -1/2 masked where infinite, is the same d on every real degree.

  Frames: each program runs to its end from any launch memory and leaves its arguments as launched — the two kernels
  as regions of @main entered one after the other (Proof/K and Proof/KI: the word-level program and its idealization
  are one text read at two float instances), the reference by its run.
-/
import proofs.«160742_j10926396801181_2_alg».proof.Defs
import proofs.«160742_j10926396801181_2_alg».proof.Proof.Gen.Kernel
import proofs.«160742_j10926396801181_2_alg».proof.Proof.Gen.KernelIdeal
import proofs.«160742_j10926396801181_2_alg».proof.Proof.Gen.ReferenceIdeal
import proofs.«160742_j10926396801181_2_alg».proof.Proof.Gen.ReferenceIdeal.Read
import proofs.«160742_j10926396801181_2_alg».proof.Proof.Gen.Pre_finite_inputs
import proofs.«160742_j10926396801181_2_alg».proof.Proof.K.Run
import proofs.«160742_j10926396801181_2_alg».proof.Proof.KI.Run
import proofs.«160742_j10926396801181_2_alg».proof.Proof.KI.Final
import proofs.«160742_j10926396801181_2_alg».proof.Proof.RefValue
import proofs.«160742_j10926396801181_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs to its end and leaves its four arguments as launched. -/
theorem frame_k : Cert.frame_Kernel := fun m ρ _ =>
  (θ_run (Cert.Kernel.defs (F := Bits)) _ _).mono (fun _ h c =>
    ⟨(h c _ (Cert.Kernel.Frm.mem_uc Cert.Kernel.main_arg0 (by decide))).trans (Cert.Kernel.Frm.W2_arg m c Cert.Kernel.main_arg0 (by decide) (by decide) (by decide)),
     (h c _ (Cert.Kernel.Frm.mem_uc Cert.Kernel.main_arg1 (by decide))).trans (Cert.Kernel.Frm.W2_arg m c Cert.Kernel.main_arg1 (by decide) (by decide) (by decide)),
     (h c _ (Cert.Kernel.Frm.mem_uc Cert.Kernel.main_arg2 (by decide))).trans (Cert.Kernel.Frm.W2_arg m c Cert.Kernel.main_arg2 (by decide) (by decide) (by decide)),
     (h c _ (Cert.Kernel.Frm.mem_uc Cert.Kernel.main_arg3 (by decide))).trans (Cert.Kernel.Frm.W2_arg m c Cert.Kernel.main_arg3 (by decide) (by decide) (by decide))⟩)
    (Cert.Kernel.Frm.run_all (F := Bits) m ρ)

/-- So does its idealization. -/
theorem frame_ki : Cert.frame_KernelIdeal := fun m ρ _ =>
  (θ_run (Cert.KernelIdeal.defs (F := Ideal)) _ _).mono (fun _ h c =>
    ⟨(h c _ (Cert.KernelIdeal.Frm.mem_uc Cert.KernelIdeal.main_arg0 (by decide))).trans (Cert.KernelIdeal.Frm.W2_arg m c Cert.KernelIdeal.main_arg0 (by decide) (by decide) (by decide)),
     (h c _ (Cert.KernelIdeal.Frm.mem_uc Cert.KernelIdeal.main_arg1 (by decide))).trans (Cert.KernelIdeal.Frm.W2_arg m c Cert.KernelIdeal.main_arg1 (by decide) (by decide) (by decide)),
     (h c _ (Cert.KernelIdeal.Frm.mem_uc Cert.KernelIdeal.main_arg2 (by decide))).trans (Cert.KernelIdeal.Frm.W2_arg m c Cert.KernelIdeal.main_arg2 (by decide) (by decide) (by decide)),
     (h c _ (Cert.KernelIdeal.Frm.mem_uc Cert.KernelIdeal.main_arg3 (by decide))).trans (Cert.KernelIdeal.Frm.W2_arg m c Cert.KernelIdeal.main_arg3 (by decide) (by decide) (by decide))⟩)
    (Cert.KernelIdeal.Frm.run_all (F := Ideal) m ρ)

/-- The reference is a host program: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the finite arguments both idealized programs end with the layer's output G of them. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run (Cert.KernelIdeal.defs (F := Ideal)) _ _).mono (fun _ h c =>
      ⟨(h c _ (Cert.KernelIdeal.Frm.mem_uc Cert.KernelIdeal.main_v1 (by decide))).trans (Cert.KernelIdeal.Val.result_eq m c),
       (h c _ (Cert.KernelIdeal.Frm.mem_uc Cert.KernelIdeal.main_arg0 (by decide))).trans (Cert.KernelIdeal.Frm.W2_arg m c Cert.KernelIdeal.main_arg0 (by decide) (by decide) (by decide)),
       (h c _ (Cert.KernelIdeal.Frm.mem_uc Cert.KernelIdeal.main_arg1 (by decide))).trans (Cert.KernelIdeal.Frm.W2_arg m c Cert.KernelIdeal.main_arg1 (by decide) (by decide) (by decide)),
       (h c _ (Cert.KernelIdeal.Frm.mem_uc Cert.KernelIdeal.main_arg2 (by decide))).trans (Cert.KernelIdeal.Frm.W2_arg m c Cert.KernelIdeal.main_arg2 (by decide) (by decide) (by decide)),
       (h c _ (Cert.KernelIdeal.Frm.mem_uc Cert.KernelIdeal.main_arg3 (by decide))).trans (Cert.KernelIdeal.Frm.W2_arg m c Cert.KernelIdeal.main_arg3 (by decide) (by decide) (by decide))⟩)
      (Cert.KernelIdeal.Frm.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3⟩ := Cert.Fin.real_of_pre _ _ _ _ (hpre c)
    rw [(hagree c).1, (hagree c).2.1, (hagree c).2.2.1, (hagree c).2.2.2]
    exact (Cert.ReferenceIdeal.Read.val_main_v16_eq (F := Ideal) _ _ _ _).trans (Cert.RefG.ref_eq _ _ _ _ h0 h1 h2 h3)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
